-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1 : Shape := ⟨2, ![1024, 1]⟩
abbrev S1 : Shape := ⟨1, ![1]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x4096x1024 .f32) (main_arg1 : FVec F S1024x1 .f32) (main_arg2 : FVec F S1 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x4096x1024 : Shape := ⟨3, ![8, 4096, 1024]⟩
abbrev S1024x1 : Shape := ⟨2, ![1024, 1]⟩
abbrev S1 : Shape := ⟨1, ![1]⟩
abbrev S1024x1024 : Shape := ⟨2, ![1024, 1024]⟩
abbrev S1024 : Shape := ⟨1, ![1024]⟩
abbrev S1x1024 : Shape := ⟨2, ![1, 1024]⟩
abbrev S1x1 : Shape := ⟨2, ![1, 1]⟩
abbrev S8x1x1024 : Shape := ⟨3, ![8, 1, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 18
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024x1, .f32⟩
  | .hbm, ⟨2, _⟩ => ⟨S1, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S8x1x1024, .f32⟩
  | .hbm, ⟨17, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1, .f32⟩
  | .local _ .vmem, ⟨4, _⟩ => ⟨S1024x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1, .f32⟩
  | .local _ .vmem, ⟨9, _⟩ => ⟨S1x1, .f32⟩
  | .local _ .vmem, ⟨10, _⟩ => ⟨S1x1024, .f32⟩
  | .local _ .vmem, ⟨11, _⟩ => ⟨S1x2048x1024, .f32⟩
  | .local _ .vmem, ⟨12, _⟩ => ⟨S1x2048x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S1x2048x1024, .f32⟩
  | .local _ .vmem, ⟨20, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_22 : BitVec 32 := 0#32
  let v48 : BitVec 1 := Scalar.cmpi .ne v47 c0_i32_22
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x2048x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S1024x1_S1x1024 : S1024x1.ShapeCasts S1x1024
  shapeCasts_S1_S1x1 : S1.ShapeCasts S1x1
  shapeCasts_S1024_S1x1024 : S1024.ShapeCasts S1x1024
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  broadcasts_S1x1024_S2048x1024 : S1x1024.Broadcasts S2048x1024
  reduces_S2048x1024_S2048 : S2048x1024.Reduces [1] S2048
  shapeCasts_S2048_S2048x1 : S2048.ShapeCasts S2048x1
  broadcasts_S1x1_S2048x1 : S1x1.Broadcasts S2048x1
  reduces_S2048x1_S1 : S2048x1.Reduces [0] S1
  broadcasts_S1x1_S1x1024 : S1x1.Broadcasts S1x1024
  broadcasts_S2048x1_S2048x1024 : S2048x1.Broadcasts S2048x1024
  reduces_S2048x1024_S1024 : S2048x1024.Reduces [0] S1024
  inb_S1024x1024_S1024x1024_0_0 : ∀ a, (![0, 0] : Fin 2 → Nat) a + S1024x1024.size a ≤ S1024x1024.size a
  h_S1024x1024 : 0 < S1024x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S1024x1024_S1024x1024 : S1024x1024.ShapeCasts S1024x1024
  shapeCasts_S2048x1024_S1x2048x1024 : S2048x1024.ShapeCasts S1x2048x1024
  dot_S1x1024_S1024x1024_S1x1024_1_0_0_1_n_n_wf : DotDims.WF S1x1024 S1024x1024 S1x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x4096x1024.size a
  hwx1_0 : ∀ i : grid1.Coords, EltTy.bits .f32 = 32 ∨ (Rect.block (s := S8x4096x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x1024.size a
  hwx1_1 : ∀ i : grid1.Coords, EltTy.bits .f32 = 32 ∨ (Rect.block (s := S8x1x1024) S1x1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048x1024.size a ≤ S8x4096x1024.size a
  hwx1_6 : ∀ i : grid1.Coords, EltTy.bits .f32 = 32 ∨ (Rect.block (s := S8x4096x1024) S1x2048x1024.size (cc1_transform_6 i) (hinb1_6 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x2048x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1 : Shape := ⟨2, ![1024, 1]⟩
abbrev S1 : Shape := ⟨1, ![1]⟩
abbrev S1024x1024 : Shape := ⟨2, ![1024, 1024]⟩
abbrev S1024 : Shape := ⟨1, ![1024]⟩
abbrev S8x4096x1 : Shape := ⟨3, ![8, 4096, 1]⟩
abbrev S1x1x1 : Shape := ⟨3, ![1, 1, 1]⟩
abbrev S_ : Shape := ⟨0, ![]⟩
abbrev S8x1 : Shape := ⟨2, ![8, 1]⟩
abbrev S8x1x1 : Shape := ⟨3, ![8, 1, 1]⟩
abbrev S1x1x1024 : Shape := ⟨3, ![1, 1, 1024]⟩
abbrev S8x1024 : Shape := ⟨2, ![8, 1024]⟩
abbrev S8x1x1024 : Shape := ⟨3, ![8, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1, .f32⟩
  | .hbm, ⟨2, _⟩ => ⟨S1, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x4096x1, .f32⟩
  | .hbm, ⟨10, _⟩ => ⟨S1x1x1, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x1, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1x1, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x1, .f32⟩
  | .hbm, ⟨24, _⟩ => ⟨S8x1x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1024, .f32⟩
  | .hbm, ⟨35, _⟩ => ⟨S8x1x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x1_d1 : S8x4096x1.ReducesTo [1] S8x1
  h_S_ : 0 < S_.numel
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x4096x1_0_1_2 : S8x1x1.BroadcastsInDim S8x4096x1 (![0, 1, 2] : Fin 3 → Fin S8x4096x1.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S8x4096x1_S8x4096x1024_0_1_2 : S8x4096x1.BroadcastsInDim S8x4096x1024 (![0, 1, 2] : Fin 3 → Fin S8x4096x1024.rank)
  reducesTo_S8x4096x1024_S8x1024_d1 : S8x4096x1024.ReducesTo [1] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  dot_S8x4096x1024_S1024x1_S8x4096x1_2_0_01_1_n_n_wf : DotDims.WF S8x4096x1024 S1024x1 S8x4096x1 [2] [0] [0, 1] [1] [] []
  dot_S8x4096x1024_S1024x1024_S8x4096x1024_2_0_01_1_n_n_wf : DotDims.WF S8x4096x1024 S1024x1024 S8x4096x1024 [2] [0] [0, 1] [1] [] []

variable [Facts₀]

def dot_S8x4096x1024_S1024x1_S8x4096x1_2_0_01_1_n_n : DotDims S8x4096x1024 S1024x1 S8x4096x1 where
  lhsContracting := [2]
  rhsContracting := [0]
  lhsNonContracting := [0, 1]
  rhsNonContracting := [1]
  lhsBatch := []
  rhsBatch := []
  wf := dot_S8x4096x1024_S1024x1_S8x4096x1_2_0_01_1_n_n_wf
def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.Kernel.Region0Runs.lean ====
/-
  Region 0 (the pooling kernel) of the two-kernel program, at any float instance: the branch conditions of its body
  decided over the 8 × 2 grid (the reset at the first tile of a batch, the epilogue at the last), where its output
  window is idle, the memrefs the pipeline passes, and the body's triple in each of the two cases — at a batch's
  first tile the three running quantities (maximum, sum, weighted row sum) are reset and then updated; at its
  second tile they are updated from what the first left and the context row is stored.
-/
import proofs.«125486_j82703890252111_2_alg».proof.Proof.Gen.Kernel.Launch
import proofs.«125486_j82703890252111_2_alg».proof.Proof.Gen.Kernel.Skeleton
import proofs.«125486_j82703890252111_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset's condition: the tile coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The epilogue's condition: the tile coordinate is the last, 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the context window is idle: nothing is stored into it and it is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At a last tile it is live. -/
theorem liveAt0_5_B : ∀ t : Fin cfg0.N, ¬cond0_0 (grid0.coords t) → cond0_1 (grid0.coords t) → cfg0.idle 5 (grid0.coords t) = false := by decide +kernel

/-! ## The memrefs the pipeline passes -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
/-- The three running quantities live in whole scoped buffers of the kernel's own: the maximum, the sum, the row sum. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1024 .f32 := Memref.whole cc0_scratch2
abbrev VS0_0 : View sig .tc .vmem S1x1 .f32 := scM0_0.view
abbrev VS0_1 : View sig .tc .vmem S1x1 .f32 := scM0_1.view
abbrev VS0_2 : View sig .tc .vmem S1x1024 .f32 := scM0_2.view
/-- One staging buffer of the context window, through which its contents are stated. -/
abbrev VO0_5 : View sig .tc .vmem S1x1x1024 .f32 := (Memref.whole cc0_stg5_0 : Memref sig .tc .vmem S1x1x1024 .f32).view

/-! ## The body in its two cases -/

set_option maxHeartbeats 4000000 in
/-- A batch's FIRST tile (reset taken, epilogue not): from the five inputs' blocks, the context buffer handed back
    untouched, the three running quantities at anything, the body leaves each running quantity with its pieces written. -/
noncomputable def kernelRun0_A (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S1x2048x1024 .f32) (x1 : Vec F S1x1024 .f32) (x2 : Vec F S1x1 .f32) (x3 : Vec F S1024x1024 .f32) (x4 : Vec F S1x1024 .f32) :
    Σ' (LS0 : List (View.Piece (Elt F) S1x1 .f32)) (LS1 : List (View.Piece (Elt F) S1x1 .f32)), { LS2 : List (View.Piece (Elt F) S1x1024 .f32) //
      ∀ (xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.Kernel.Region0RunB.lean ====
/-
  Region 0 (the pooling kernel): the body's triple at a batch's LAST tile (reset not taken, epilogue taken) — the
  three running quantities come in at what the first tile left, are updated, and the context row is stored.
-/
import proofs.«125486_j82703890252111_2_alg».proof.Proof.Kernel.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A batch's LAST tile: from the five inputs' blocks, the context buffer at anything and the running quantities at
    the contents `xs·` the tile before left, the body leaves the context buffer and each running quantity with its
    pieces written. -/
noncomputable def kernelRun0_B (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S1x2048x1024 .f32) (x1 : Vec F S1x1024 .f32) (x2 : Vec F S1x1 .f32) (x3 : Vec F S1024x1024 .f32) (x4 : Vec F S1x1024 .f32) (xs0 : Vec F S1x1 .f32) (xs1 : Vec F S1x1 .f32) (xs2 : Vec F S1x1024 .f32) :
    Σ' (L5 : List (View.Piece (Elt F) S1x1x1024 .f32)) (LS0 : List (View.Piece (Elt F) S1x1 .f32)) (LS1 : List (View.Piece (Elt F) S1x1 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.Kernel.Region0.lean ====
/-
  Region 0 (the pooling kernel), continued: what each case leaves in the three running quantities and in the
  context buffer (its stores read back), the same point by point along the grid — a batch's second tile starts
  from what its first tile left —, the region's invariant (the running quantities carried between the points at
  exactly those contents), the pipeline's proof data and the body obligation at every point.
-/
import proofs.«125486_j82703890252111_2_alg».proof.Proof.Kernel.Region0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The invariant's fixed part -/

/-- The core's other scoped buffers (the second kernel's staging buffers), each whole at some contents: the pooling
    kernel never touches them. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class's invariant with the three running quantities as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  unfold Pipeline.ΦA; rw [scopedRest0_eq]; simp only [scM0_0, scM0_1, scM0_2, owns_whole]; try rfl

/-! ## What each case leaves -/

section Cases
variable (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole)

theorem scover0_A_0 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x1.size (by sl_kernel_rfl) y
theorem scover0_A_1 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x1.size (by sl_kernel_rfl) y
theorem scover0_A_2 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1x1024.size (by sl_kernel_rfl) y

/-- What a first tile leaves in the running maximum, sum and row sum: its pieces read back. -/
def sout0_A_0 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).1)
def sout0_A_1 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.1)
def sout0_A_2 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3 x4).2.2.1)

variable (xs0 : Vec F S1x1 .f32) (xs1 : Vec F S1x1 .f32) (xs2 : Vec F S1x1024 .f32)

theorem cover0_B_5 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).1 S1x1x1024.size (by sl_kernel_rfl) y
theorem scover0_B_0 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.1 S1x1.size (by sl_kernel_rfl) y
theorem scover0_B_1 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.1 S1x1.size (by sl_kernel_rfl) y
theorem scover0_B_2 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1 S1x1024.size (by sl_kernel_rfl) y

/-- What a last tile leaves in the context buffer and in the three running quantities. -/
def out0_B_5 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1x1024 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1 xs2).1)
def sout0_B_0 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1 xs2).2.1)
def sout0_B_1 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.1)
def sout0_B_2 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1)

end Cases

/-! ## Point by point -/

/-- The conditions at a point from its parity. -/
theorem hc0_of_even (t : Fin cfg0.N) (h : t.val % 2 = 0) : cond0_0 (grid0.coords t) := (hcond0_0 t).mpr h
theorem nhc1_of_even (t : Fin cfg0.N) (h : t.val % 2 = 0) : ¬cond0_1 (grid0.coords t) := fun h1 => by have := (hcond0_1 t).mp h1; omega
theorem nhc0_of_odd (t : Fin cfg0.N) (h : ¬t.val % 2 = 0) : ¬cond0_0 (grid0.coords t) := fun h0 => h ((hcond0_0 t).mp h0)
theorem hc1_of_odd (t : Fin cfg0.N) (h : ¬t.val % 2 = 0) : cond0_1 (grid0.coords t) := (hcond0_1 t).mpr (by omega)

/-- A placeholder for the context buffer at a first tile, where the window is idle: nothing consults it. -/
def out0_A_5 : Vec F S1x1x1024 .f32 := VO0_5.read (Elt F) VO0_5.junk

/-- THE ACCUMULATION: what the context buffer and the three running quantities hold after the body at position `n`:
    at an even position the first-tile case on the point's blocks; at an odd one the last-tile case on the point's
    blocks and on what position `n - 1` left in the running quantities. -/
def outsAt0 (c : Dev nD) : (n : ℕ) → n < cfg0.N → Vec F S1x1x1024 .f32 × Vec F S1x1 .f32 × Vec F S1x1 .f32 × Vec F S1x1024 .f32
  | 0, hn => (out0_A_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 2 = 0 then
      (out0_A_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))

/-- `outsAt0` at an even point: the first-tile case's contents. -/
theorem outsAt0_A (c : Dev nD) (t : Fin cfg0.N) (h0 : t.val % 2 = 0) :
    outsAt0 V c t.val t.isLt = (out0_A_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at an odd point: the last-tile case's contents, over what the point before left. -/
theorem outsAt0_B (c : Dev nD) (t : Fin cfg0.N) (h0 : ¬t.val % 2 = 0) :
    outsAt0 V c t.val t.isLt = (let p := outsAt0 V c (t.val - 1) (Nat.lt_of_le_of_lt (Nat.sub_le _ _) t.isLt)
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t))) := by
  obtain ⟨n, hn⟩ := t
  cases n with
  | zero => exact absurd (Nat.zero_mod _) h0
  | succ n => exact (dif_neg h0).trans rfl

/-! ## The invariant -/

/-- Before position `n`: at the very first point the class's invariant (every scoped buffer at anything); afterwards
    the three running quantities at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ rest0 c) ∗ (∃ r, prngReg c r)) := by
  cases n with
  | zero => exact absurd rfl hz
  | succ n => rfl

/-! ## The pipeline's proof data -/

/-- Region 0's proof data on core `c`: the arrays as the region finds them; after the body at point `t` each input's
    buffer at its block and the context buffer at `outsAt0`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Hand

end
-- ==== Proof.Kernel.Region0Body.lean ====
/-
  Region 0 (the pooling kernel): the body obligation at every point — the point's parity says which case it is in;
  the invariant hands the body the three running quantities (at anything at the very first point, else at what the
  point before left) and takes them back at this point's contents — and the invariant's two ends.
-/
import proofs.«125486_j82703890252111_2_alg».proof.Proof.Kernel.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · rw [Dat.leavesExact_idle (dat0 V c) 5 t (idleAt0_5_A t (hc0_of_even t h0) (nhc1_of_even t h0)) (noFlush0_5_A t (hc0_of_even t h0) (nhc1_of_even t h0))]
    rw [outsAt0_A V c t h0]
    unfold sout0_A_0 sout0_A_1 sout0_A_2; (try dsimp only)
    by_cases hz : t.val = 0
    · rw [PhiS_castSucc V c t, PhiS_zero V c _ _ hz, PhiA0_eq]
      iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS2]
          · unfold owns; iexists _; isplitr
            swap; · iexact HS2
            ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS2]
          · unfold owns; iexists _; isplitr
            swap; · iexact HS2
            ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [show (dat0 V c).leavesExact 5 t = owns (c : Thread nD τ) (ms0_5 t) fullShare ((dat0 V c).after 5 t) from by
      unfold Dat.leavesExact; rw [liveAt0_5_B t (nhc0_of_odd t h0) (hc1_of_odd t h0)], after0_5]
    rw [outsAt0_B V c t h0]
    unfold out0_B_5 sout0_B_0 sout0_B_1 sout0_B_2; (try dsimp only)
    have hz : t.val ≠ 0 := fun hz => h0 (by rw [hz])
    rw [PhiS_castSucc V c t, PhiS_pos V c _ _ hz]
    iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nhc0_of_odd t h0) (hc1_of_odd t h0) (iblk0 V c 0 t) (iblk0 V c 1 t) (iblk0 V c 2 t) (iblk0 V c 3 t) (iblk0 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hrest Hg]
    · isplitl [HS0 HS1 HS2 Hrest]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        isplitl [HS1]
        · unfold owns; iexists _; isplitr
          swap; · iexact HS1
          ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        isplitl [HS2]
        · unfold owns; iexists _; isplitr
          swap; · iexact HS2
          ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the running quantities' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.Kernel.Region1.lean ====
import proofs.«125486_j82703890252111_2_alg».proof.Proof.Gen.Kernel.Launch
import proofs.«125486_j82703890252111_2_alg».proof.Proof.Gen.Kernel.Skeleton
import proofs.«125486_j82703890252111_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: seven windows over a grid of 8 × 2 points, at the entry contents `V`

Windows 0–5 are read (the activations' block, the context row of the batch, the two bf16 weight matrices and the
two bias rows), window 6 is written whole at every point. Everything is stated at a parameter `V`, the contents of
the core's buffers when the call is entered, and at any float instance `F`. -/

/-! ## The windows' blocks -/

/-- Window `w`'s block at point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether or not the point fetches it, for any proof data whose
    array for the window is `V`'s (`hA`) and whose body leaves the block where it found it (`hafter`): an
    unfetched input's block index has not moved since the point before, so the block it still holds is this
    point's. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether or not the point fetches it, for any proof data whose
    array for the window is `V`'s (`hA`) and whose body leaves the block where it found it (`hafter`): an
    unfetched input's block index has not moved since the point before, so the block it still holds is this
    point's. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether or not the point fetches it, for any proof data whose
    array for the window is `V`'s (`hA`) and whose body leaves the block where it found it (`hafter`): an
    unfetched input's block index has not moved since the point before, so the block it still holds is this
    point's. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether or not the point fetches it, for any proof data whose
    array for the window is `V`'s (`hA`) and whose body leaves the block where it found it (`hafter`): an
    unfetched input's block index has not moved since the point before, so the block it still holds is this
    point's. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, whether or not the point fetches it, for any proof data whose
    array for the window is `V`'s (`hA`) and whose body leaves the block where it found it (`hafter`): an
    unfetched input's block index has not moved since the point before, so the block it still holds is this
    point's. The window is never cut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, whether or not the point fetches it, for any proof data whose
    array for the window is `V`'s (`hA`) and whose body leaves the block where it found it (`hafter`): an
    unfetched input's block index has not moved since the point before, so the block it still holds is this
    point's. The window is never cut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one a whole staging buffer -/

abbrev rX : Rect S1x2048x1024 := Rect.unit (s := S1x2048x1024) ![0, 0, 0] S1x2048x1024.size inb_S1x2048x1024_S1x2048x1024_0_0_0
abbrev rRow3 : Rect S1x1x1024 := Rect.unit (s := S1x1x1024) ![0, 0, 0] S1x1x1024.size inb_S1x1x1024_S1x1x1024_0_0_0
abbrev rMat : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in the output window's buffer -/

/-- The output buffer after the body, as a function of the six input blocks (in window order): one store over the
    whole buffer, of the payload computed from the six loads. The payload takes its loads in the order the body
    makes them: activations, first weights, first bias, context row, second weights, second bias. -/
def out1_6 (x0 : Vec F S1x2048x1024 .f32) (x1 : Vec F S1x1x1024 .f32) (x2 : Vec F S1024x1024 .bf16) (x3 : Vec F S1x1024 .f32) (x4 : Vec F S1024x1024 .bf16) (x5 : Vec F S1x1024 .f32) : Vec F S1x2048x1024 .f32 :=
  View.canon [⟨rX, k1_pay1 (View.ld x0 rX) (View.ld x2 rMat) (View.ld x3 rRow) (View.ld x1 rRow3) (View.ld x4 rMat) (View.ld x5 rRow)⟩]

/-- The one store is over the whole buffer, so every index of the buffer lies under it. -/
theorem cover1_6 (p0 : Vec F S1x2048x1024 .f32) (y : S1x2048x1024.Idx) :
    ∃ pc ∈ ([⟨rX, p0⟩] : List (View.Piece (Elt F) S1x2048x1024 .f32)), y ∈ pc.1.set :=
  View.cover_of_tiled [⟨rX, p0⟩] S1x2048x1024.size (by rfl) y

/-! ## The body's triple -/

set_option maxHeartbeats 1000000 in
/-- The body on whole staging memrefs — the six inputs' at read contents `x0 … x5`, the output's at any contents —
    runs to a continuation that holds the inputs' as they were and the output's at `out1_6` of the inputs. The body
    also loads its output buffer once, before the store, and uses nothing of what it read; so nothing need be known
    of that buffer going in. -/
theorem sound_kernel1 (c : Dev nD) (E : Set ℕ) (i : grid1.Coords)
    (arg2 : Memref sig .tc .vmem S1x2048x1024 .f32) (harg2 : arg2.IsWhole) (arg3 : Memref sig .tc .vmem S1x1x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1x1024 .f32) (harg7 : arg7.IsWhole)
    (arg8 : Memref sig .tc .vmem S1x2048x1024 .f32) (harg8 : arg8.IsWhole)
    (x0 : Vec F S1x2048x1024 .f32) (x1 : Vec F S1x1x1024 .f32) (x2 : Vec F S1024x1024 .bf16) (x3 : Vec F S1x1024 .f32) (x4 : Vec F S1024x1024 .bf16) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__out_kernel i arg2 harg2 arg3 harg3 arg4 harg4 arg5 harg5 arg6 harg6 arg7 harg7 arg8 harg8) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the call on core `c`: the windows' arrays as the call finds them; after the body at point `t`
    each input's buffer still at its block and the output's at `out1_6` of the six input blocks; as invariant the
    buffers the call does not touch and the generator register, unchanged; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (the definition projected, without unfolding `V`). -/
theorem A_eq1 (c : Dev nD) (w : Fin cfg1.W) : (dat1 V c).A w = V c (Pipeline.arrRef spec1 w) := by
  dsimp only [dat1]

/-- What the body leaves, window by window (the `match` reduced at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and each window's current staging
    memref at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The run of the two-kernel program: the buffer contents at each boundary of @main's three items (the host lines,
  the pooling kernel, the output kernel) as a fold from the launch memory; each kernel's proof data at the contents
  its region is entered with; the regions as segments of the several-regions launch; and from it, at any float
  instance, every weakly fair execution terminating with every unscoped buffer at the last boundary's contents —
  hence the argument arrays as launched, and the result array at what the output kernel's write-backs leave.
-/
import proofs.«125486_j82703890252111_2_alg».proof.Proof.Gen.Kernel.Regions
import proofs.«125486_j82703890252111_2_alg».proof.Proof.Kernel.Region0Body
import proofs.«125486_j82703890252111_2_alg».proof.Proof.Kernel.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, and after the host lines (the pooling kernel's entry). -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- After the pooling kernel: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the output kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  ((W3_arr m c 0).trans (((dat1 (V2 m) c).arrAt_in 0 rfl _).trans (A_eq1 (V2 m) c 0))).trans <| ((W2_arr m c 0).trans (((dat0 (V1 m) c).arrAt_in 0 rfl _).trans (A_eq0 (V1 m) c 0))).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| ((W2_arr m c 3).trans (((dat0 (V1 m) c).arrAt_in 3 rfl _).trans (A_eq0 (V1 m) c 3))).trans <| (Gen.V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (Gen.V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (Gen.V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (Gen.V1_of m c main_arg8 (by decide)).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The region's default invariant, given back in the order the launch takes it: the random-number register, no semaphore of the kernel's own, the other scoped buffers. -/
theorem houtA (c : Dev nD) : (Pipeline.ΦA spec0 c : sProp 𝕄)
    ⊢ iprop((∃ r, prngReg c r) ∗ (BI.emp : sProp 𝕄) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at the contents before it, left at the
    contents after it; its arrays are split out of the unscoped buffers and put back at what the pipeline leaves;
    the generator register goes into the invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m) c).trans (houtA c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the
    contents after it; its arrays are split out of the unscoped buffers and put back at what the pipeline leaves;
    the generator register goes into the invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c)⟩) (run_all m ρ)

/-- The run with the result array named: it ends at what the output kernel's write-backs leave. -/
theorem run_result : θ_run defs (onTc (τ := τ) (main (F := F))) ⟨m, fun _ => 0, ρ⟩ (fun r => ∀ c : Dev nD,
      r.2.mem ((c.tc : Thread nD τ).loc main_v8) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v8 (by decide))).trans (W3_arr m c 6),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c)⟩) (run_all m ρ)

end Cert.Kernel.Hand

end
-- ==== Proof.KernelIdeal.Region0Runs.lean ====
/-
  Region 0 (the pooling kernel) of the two-kernel program, at any float instance: the branch conditions of its body
  decided over the 8 × 2 grid (the reset at the first tile of a batch, the epilogue at the last), where its output
  window is idle, the memrefs the pipeline passes, and the body's triple in each of the two cases — at a batch's
  first tile the three running quantities (maximum, sum, weighted row sum) are reset and then updated; at its
  second tile they are updated from what the first left and the context row is stored.
-/
import proofs.«125486_j82703890252111_2_alg».proof.Proof.Gen.KernelIdeal.Launch
import proofs.«125486_j82703890252111_2_alg».proof.Proof.Gen.KernelIdeal.Skeleton
import proofs.«125486_j82703890252111_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset's condition: the tile coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The epilogue's condition: the tile coordinate is the last, 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the context window is idle: nothing is stored into it and it is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At a last tile it is live. -/
theorem liveAt0_5_B : ∀ t : Fin cfg0.N, ¬cond0_0 (grid0.coords t) → cond0_1 (grid0.coords t) → cfg0.idle 5 (grid0.coords t) = false := by decide +kernel

/-! ## The memrefs the pipeline passes -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
/-- The three running quantities live in whole scoped buffers of the kernel's own: the maximum, the sum, the row sum. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1024 .f32 := Memref.whole cc0_scratch2
abbrev VS0_0 : View sig .tc .vmem S1x1 .f32 := scM0_0.view
abbrev VS0_1 : View sig .tc .vmem S1x1 .f32 := scM0_1.view
abbrev VS0_2 : View sig .tc .vmem S1x1024 .f32 := scM0_2.view
/-- One staging buffer of the context window, through which its contents are stated. -/
abbrev VO0_5 : View sig .tc .vmem S1x1x1024 .f32 := (Memref.whole cc0_stg5_0 : Memref sig .tc .vmem S1x1x1024 .f32).view

/-! ## The body in its two cases -/

set_option maxHeartbeats 4000000 in
/-- A batch's FIRST tile (reset taken, epilogue not): from the five inputs' blocks, the context buffer handed back
    untouched, the three running quantities at anything, the body leaves each running quantity with its pieces written. -/
noncomputable def kernelRun0_A (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S1x2048x1024 .f32) (x1 : Vec F S1x1024 .f32) (x2 : Vec F S1x1 .f32) (x3 : Vec F S1024x1024 .f32) (x4 : Vec F S1x1024 .f32) :
    Σ' (LS0 : List (View.Piece (Elt F) S1x1 .f32)) (LS1 : List (View.Piece (Elt F) S1x1 .f32)), { LS2 : List (View.Piece (Elt F) S1x1024 .f32) //
      ∀ (xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KernelIdeal.Region0RunB.lean ====
/-
  Region 0 (the pooling kernel): the body's triple at a batch's LAST tile (reset not taken, epilogue taken) — the
  three running quantities come in at what the first tile left, are updated, and the context row is stored.
-/
import proofs.«125486_j82703890252111_2_alg».proof.Proof.KernelIdeal.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A batch's LAST tile: from the five inputs' blocks, the context buffer at anything and the running quantities at
    the contents `xs·` the tile before left, the body leaves the context buffer and each running quantity with its
    pieces written. -/
noncomputable def kernelRun0_B (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S1x2048x1024 .f32) (x1 : Vec F S1x1024 .f32) (x2 : Vec F S1x1 .f32) (x3 : Vec F S1024x1024 .f32) (x4 : Vec F S1x1024 .f32) (xs0 : Vec F S1x1 .f32) (xs1 : Vec F S1x1 .f32) (xs2 : Vec F S1x1024 .f32) :
    Σ' (L5 : List (View.Piece (Elt F) S1x1x1024 .f32)) (LS0 : List (View.Piece (Elt F) S1x1 .f32)) (LS1 : List (View.Piece (Elt F) S1x1 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__context_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__context_kernel_eq_skeleton]; unfold cc0__context_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KernelIdeal.Region0.lean ====
/-
  Region 0 (the pooling kernel), continued: what each case leaves in the three running quantities and in the
  context buffer (its stores read back), the same point by point along the grid — a batch's second tile starts
  from what its first tile left —, the region's invariant (the running quantities carried between the points at
  exactly those contents), the pipeline's proof data and the body obligation at every point.
-/
import proofs.«125486_j82703890252111_2_alg».proof.Proof.KernelIdeal.Region0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The invariant's fixed part -/

/-- The core's other scoped buffers (the second kernel's staging buffers), each whole at some contents: the pooling
    kernel never touches them. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class's invariant with the three running quantities as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  unfold Pipeline.ΦA; rw [scopedRest0_eq]; simp only [scM0_0, scM0_1, scM0_2, owns_whole]; try rfl

/-! ## What each case leaves -/

section Cases
variable (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole)

theorem scover0_A_0 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x1.size (by sl_kernel_rfl) y
theorem scover0_A_1 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x1.size (by sl_kernel_rfl) y
theorem scover0_A_2 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1x1024.size (by sl_kernel_rfl) y

/-- What a first tile leaves in the running maximum, sum and row sum: its pieces read back. -/
def sout0_A_0 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).1)
def sout0_A_1 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.1)
def sout0_A_2 (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3 x4).2.2.1)

variable (xs0 : Vec F S1x1 .f32) (xs1 : Vec F S1x1 .f32) (xs2 : Vec F S1x1024 .f32)

theorem cover0_B_5 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).1 S1x1x1024.size (by sl_kernel_rfl) y
theorem scover0_B_0 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.1 S1x1.size (by sl_kernel_rfl) y
theorem scover0_B_1 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.1 S1x1.size (by sl_kernel_rfl) y
theorem scover0_B_2 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1 S1x1024.size (by sl_kernel_rfl) y

/-- What a last tile leaves in the context buffer and in the three running quantities. -/
def out0_B_5 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1x1024 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1 xs2).1)
def sout0_B_0 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1 xs2).2.1)
def sout0_B_1 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.1)
def sout0_B_2 (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1)

end Cases

/-! ## Point by point -/

/-- The conditions at a point from its parity. -/
theorem hc0_of_even (t : Fin cfg0.N) (h : t.val % 2 = 0) : cond0_0 (grid0.coords t) := (hcond0_0 t).mpr h
theorem nhc1_of_even (t : Fin cfg0.N) (h : t.val % 2 = 0) : ¬cond0_1 (grid0.coords t) := fun h1 => by have := (hcond0_1 t).mp h1; omega
theorem nhc0_of_odd (t : Fin cfg0.N) (h : ¬t.val % 2 = 0) : ¬cond0_0 (grid0.coords t) := fun h0 => h ((hcond0_0 t).mp h0)
theorem hc1_of_odd (t : Fin cfg0.N) (h : ¬t.val % 2 = 0) : cond0_1 (grid0.coords t) := (hcond0_1 t).mpr (by omega)

/-- A placeholder for the context buffer at a first tile, where the window is idle: nothing consults it. -/
def out0_A_5 : Vec F S1x1x1024 .f32 := VO0_5.read (Elt F) VO0_5.junk

/-- THE ACCUMULATION: what the context buffer and the three running quantities hold after the body at position `n`:
    at an even position the first-tile case on the point's blocks; at an odd one the last-tile case on the point's
    blocks and on what position `n - 1` left in the running quantities. -/
def outsAt0 (c : Dev nD) : (n : ℕ) → n < cfg0.N → Vec F S1x1x1024 .f32 × Vec F S1x1 .f32 × Vec F S1x1 .f32 × Vec F S1x1024 .f32
  | 0, hn => (out0_A_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) (hc0_of_even ⟨0, hn⟩ rfl) (nhc1_of_even ⟨0, hn⟩ rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 2 = 0 then
      (out0_A_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (hc0_of_even ⟨n + 1, hn⟩ h0) (nhc1_of_even ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (outsAt0 c n (Nat.lt_of_succ_lt hn)).2.1 (outsAt0 c n (Nat.lt_of_succ_lt hn)).2.2.1 (outsAt0 c n (Nat.lt_of_succ_lt hn)).2.2.2 (nhc0_of_odd ⟨n + 1, hn⟩ h0) (hc1_of_odd ⟨n + 1, hn⟩ h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))

/-- `outsAt0` at an even point: the first-tile case's contents. -/
theorem outsAt0_A (c : Dev nD) (t : Fin cfg0.N) (h0 : t.val % 2 = 0) :
    outsAt0 V c t.val t.isLt = (out0_A_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at an odd point: the last-tile case's contents, over what the point before left. -/
theorem outsAt0_B (c : Dev nD) (t : Fin cfg0.N) (h0 : ¬t.val % 2 = 0) :
    outsAt0 V c t.val t.isLt = (let p := outsAt0 V c (t.val - 1) (Nat.lt_of_le_of_lt (Nat.sub_le _ _) t.isLt)
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t),
       sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) p.2.1 p.2.2.1 p.2.2.2 (nhc0_of_odd t h0) (hc1_of_odd t h0) (iblk0 V c 0 t) (iblk0 V c 1 t) (iblk0 V c 2 t) (iblk0 V c 3 t) (iblk0 V c 4 t))) := by
  obtain ⟨n, hn⟩ := t
  cases n with
  | zero => exact absurd (Nat.zero_mod _) h0
  | succ n => exact (dif_neg h0).trans rfl

/-! ## The invariant -/

/-- Before position `n`: at the very first point the class's invariant (every scoped buffer at anything); afterwards
    the three running quantities at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ rest0 c) ∗ (∃ r, prngReg c r)) := by
  cases n with
  | zero => exact absurd rfl hz
  | succ n => rfl

/-! ## The pipeline's proof data -/

/-- Region 0's proof data on core `c`: the arrays as the region finds them; after the body at point `t` each input's
    buffer at its block and the context buffer at `outsAt0`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Hand

end
-- ==== Proof.KernelIdeal.Region0Body.lean ====
/-
  Region 0 (the pooling kernel): the body obligation at every point — the point's parity says which case it is in;
  the invariant hands the body the three running quantities (at anything at the very first point, else at what the
  point before left) and takes them back at this point's contents — and the invariant's two ends.
-/
import proofs.«125486_j82703890252111_2_alg».proof.Proof.KernelIdeal.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · rw [Dat.leavesExact_idle (dat0 V c) 5 t (idleAt0_5_A t (hc0_of_even t h0) (nhc1_of_even t h0)) (noFlush0_5_A t (hc0_of_even t h0) (nhc1_of_even t h0))]
    rw [outsAt0_A V c t h0]
    unfold sout0_A_0 sout0_A_1 sout0_A_2; (try dsimp only)
    by_cases hz : t.val = 0
    · rw [PhiS_castSucc V c t, PhiS_zero V c _ _ hz, PhiA0_eq]
      iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS2]
          · unfold owns; iexists _; isplitr
            swap; · iexact HS2
            ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          isplitl [HS2]
          · unfold owns; iexists _; isplitr
            swap; · iexact HS2
            ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [show (dat0 V c).leavesExact 5 t = owns (c : Thread nD τ) (ms0_5 t) fullShare ((dat0 V c).after 5 t) from by
      unfold Dat.leavesExact; rw [liveAt0_5_B t (nhc0_of_odd t h0) (hc1_of_odd t h0)], after0_5]
    rw [outsAt0_B V c t h0]
    unfold out0_B_5 sout0_B_0 sout0_B_1 sout0_B_2; (try dsimp only)
    have hz : t.val ≠ 0 := fun hz => h0 (by rw [hz])
    rw [PhiS_castSucc V c t, PhiS_pos V c _ _ hz]
    iintro ⟨⟨⟨HS0, HS1, HS2, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nhc0_of_odd t h0) (hc1_of_odd t h0) (iblk0 V c 0 t) (iblk0 V c 1 t) (iblk0 V c 2 t) (iblk0 V c 3 t) (iblk0 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hrest Hg]
    · isplitl [HS0 HS1 HS2 Hrest]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        isplitl [HS1]
        · unfold owns; iexists _; isplitr
          swap; · iexact HS1
          ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        isplitl [HS2]
        · unfold owns; iexists _; isplitr
          swap; · iexact HS2
          ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ (nhc0_of_odd t h0) (hc1_of_odd t h0) (iblk0 V c 0 t) (iblk0 V c 1 t) (iblk0 V c 2 t) (iblk0 V c 3 t) (iblk0 V c 4 t))

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the running quantities' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KernelIdeal.Region1.lean ====
import proofs.«125486_j82703890252111_2_alg».proof.Proof.Gen.KernelIdeal.Launch
import proofs.«125486_j82703890252111_2_alg».proof.Proof.Gen.KernelIdeal.Skeleton
import proofs.«125486_j82703890252111_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: seven windows over a grid of 8 × 2 points, at the entry contents `V`

Windows 0–5 are read (the activations' block, the context row of the batch, the two bf16 weight matrices and the
two bias rows), window 6 is written whole at every point. Everything is stated at a parameter `V`, the contents of
the core's buffers when the call is entered, and at any float instance `F`. -/

/-! ## The windows' blocks -/

/-- Window `w`'s block at point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether or not the point fetches it, for any proof data whose
    array for the window is `V`'s (`hA`) and whose body leaves the block where it found it (`hafter`): an
    unfetched input's block index has not moved since the point before, so the block it still holds is this
    point's. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether or not the point fetches it, for any proof data whose
    array for the window is `V`'s (`hA`) and whose body leaves the block where it found it (`hafter`): an
    unfetched input's block index has not moved since the point before, so the block it still holds is this
    point's. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether or not the point fetches it, for any proof data whose
    array for the window is `V`'s (`hA`) and whose body leaves the block where it found it (`hafter`): an
    unfetched input's block index has not moved since the point before, so the block it still holds is this
    point's. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether or not the point fetches it, for any proof data whose
    array for the window is `V`'s (`hA`) and whose body leaves the block where it found it (`hafter`): an
    unfetched input's block index has not moved since the point before, so the block it still holds is this
    point's. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, whether or not the point fetches it, for any proof data whose
    array for the window is `V`'s (`hA`) and whose body leaves the block where it found it (`hafter`): an
    unfetched input's block index has not moved since the point before, so the block it still holds is this
    point's. The window is never cut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, whether or not the point fetches it, for any proof data whose
    array for the window is `V`'s (`hA`) and whose body leaves the block where it found it (`hafter`): an
    unfetched input's block index has not moved since the point before, so the block it still holds is this
    point's. The window is never cut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one a whole staging buffer -/

abbrev rX : Rect S1x2048x1024 := Rect.unit (s := S1x2048x1024) ![0, 0, 0] S1x2048x1024.size inb_S1x2048x1024_S1x2048x1024_0_0_0
abbrev rRow3 : Rect S1x1x1024 := Rect.unit (s := S1x1x1024) ![0, 0, 0] S1x1x1024.size inb_S1x1x1024_S1x1x1024_0_0_0
abbrev rMat : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in the output window's buffer -/

/-- The output buffer after the body, as a function of the six input blocks (in window order): one store over the
    whole buffer, of the payload computed from the six loads. The payload takes its loads in the order the body
    makes them: activations, first weights, first bias, context row, second weights, second bias. -/
def out1_6 (x0 : Vec F S1x2048x1024 .f32) (x1 : Vec F S1x1x1024 .f32) (x2 : Vec F S1024x1024 .bf16) (x3 : Vec F S1x1024 .f32) (x4 : Vec F S1024x1024 .bf16) (x5 : Vec F S1x1024 .f32) : Vec F S1x2048x1024 .f32 :=
  View.canon [⟨rX, k1_pay1 (View.ld x0 rX) (View.ld x2 rMat) (View.ld x3 rRow) (View.ld x1 rRow3) (View.ld x4 rMat) (View.ld x5 rRow)⟩]

/-- The one store is over the whole buffer, so every index of the buffer lies under it. -/
theorem cover1_6 (p0 : Vec F S1x2048x1024 .f32) (y : S1x2048x1024.Idx) :
    ∃ pc ∈ ([⟨rX, p0⟩] : List (View.Piece (Elt F) S1x2048x1024 .f32)), y ∈ pc.1.set :=
  View.cover_of_tiled [⟨rX, p0⟩] S1x2048x1024.size (by rfl) y

/-! ## The body's triple -/

set_option maxHeartbeats 1000000 in
/-- The body on whole staging memrefs — the six inputs' at read contents `x0 … x5`, the output's at any contents —
    runs to a continuation that holds the inputs' as they were and the output's at `out1_6` of the inputs. The body
    also loads its output buffer once, before the store, and uses nothing of what it read; so nothing need be known
    of that buffer going in. -/
theorem sound_kernel1 (c : Dev nD) (E : Set ℕ) (i : grid1.Coords)
    (arg2 : Memref sig .tc .vmem S1x2048x1024 .f32) (harg2 : arg2.IsWhole) (arg3 : Memref sig .tc .vmem S1x1x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1x1024 .f32) (harg7 : arg7.IsWhole)
    (arg8 : Memref sig .tc .vmem S1x2048x1024 .f32) (harg8 : arg8.IsWhole)
    (x0 : Vec F S1x2048x1024 .f32) (x1 : Vec F S1x1x1024 .f32) (x2 : Vec F S1024x1024 .bf16) (x3 : Vec F S1x1024 .f32) (x4 : Vec F S1024x1024 .bf16) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__out_kernel i arg2 harg2 arg3 harg3 arg4 harg4 arg5 harg5 arg6 harg6 arg7 harg7 arg8 harg8) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the call on core `c`: the windows' arrays as the call finds them; after the body at point `t`
    each input's buffer still at its block and the output's at `out1_6` of the six input blocks; as invariant the
    buffers the call does not touch and the generator register, unchanged; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (the definition projected, without unfolding `V`). -/
theorem A_eq1 (c : Dev nD) (w : Fin cfg1.W) : (dat1 V c).A w = V c (Pipeline.arrRef spec1 w) := by
  dsimp only [dat1]

/-- What the body leaves, window by window (the `match` reduced at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and each window's current staging
    memref at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of the two-kernel program: the buffer contents at each boundary of @main's three items (the host lines,
  the pooling kernel, the output kernel) as a fold from the launch memory; each kernel's proof data at the contents
  its region is entered with; the regions as segments of the several-regions launch; and from it, at any float
  instance, every weakly fair execution terminating with every unscoped buffer at the last boundary's contents —
  hence the argument arrays as launched, and the result array at what the output kernel's write-backs leave.
-/
import proofs.«125486_j82703890252111_2_alg».proof.Proof.Gen.KernelIdeal.Regions
import proofs.«125486_j82703890252111_2_alg».proof.Proof.KernelIdeal.Region0Body
import proofs.«125486_j82703890252111_2_alg».proof.Proof.KernelIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, and after the host lines (the pooling kernel's entry). -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- After the pooling kernel: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the output kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  ((W3_arr m c 0).trans (((dat1 (V2 m) c).arrAt_in 0 rfl _).trans (A_eq1 (V2 m) c 0))).trans <| ((W2_arr m c 0).trans (((dat0 (V1 m) c).arrAt_in 0 rfl _).trans (A_eq0 (V1 m) c 0))).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| ((W2_arr m c 3).trans (((dat0 (V1 m) c).arrAt_in 3 rfl _).trans (A_eq0 (V1 m) c 3))).trans <| (Gen.V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (Gen.V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (Gen.V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (Gen.V1_of m c main_arg8 (by decide)).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The region's default invariant, given back in the order the launch takes it: the random-number register, no semaphore of the kernel's own, the other scoped buffers. -/
theorem houtA (c : Dev nD) : (Pipeline.ΦA spec0 c : sProp 𝕄)
    ⊢ iprop((∃ r, prngReg c r) ∗ (BI.emp : sProp 𝕄) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at the contents before it, left at the
    contents after it; its arrays are split out of the unscoped buffers and put back at what the pipeline leaves;
    the generator register goes into the invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m) c).trans (houtA c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the
    contents after it; its arrays are split out of the unscoped buffers and put back at what the pipeline leaves;
    the generator register goes into the invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c)⟩) (run_all m ρ)

/-- The run with the result array named: it ends at what the output kernel's write-backs leave. -/
theorem run_result : θ_run defs (onTc (τ := τ) (main (F := F))) ⟨m, fun _ => 0, ρ⟩ (fun r => ∀ c : Dev nD,
      r.2.mem ((c.tc : Thread nD τ).loc main_v8) = (dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v8 (by decide))).trans (W3_arr m c 6),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c)⟩) (run_all m ρ)

end Cert.KernelIdeal.Hand

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KernelIdeal.Region1Value.lean ====
import proofs.«125486_j82703890252111_2_alg».proof.Proof.KernelIdeal.Region1
import proofs.«125486_j82703890252111_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # The value the second call leaves, on the extended reals

For one row `r` of a block and one output column `e` the body computes
`∑ j, ((∑ d, x r d · Wv d j) + bv j) · ctx j · Wo j e + bo e`: a row of the activations through the first weight
matrix, the first bias added, the batch's context row multiplied in, the result through the second weight matrix, the
second bias added. The two roundings to the narrow format are the identity on the extended reals. -/

/-! ## The body's payload at an index -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The matrix product of a `[2048, 1024]` array with a `[1024, 1024]` one into the zero accumulator, at `(r, e)`:
    the sum over the contracted axis of the products. -/
theorem mm_apply {φ₁ φ₂ : FTy} (L : FVec Ideal S2048x1024 φ₁) (W : FVec Ideal S1024x1024 φ₂) (r : Fin 2048) (e : Fin 1024) :
    matmul dot_S2048x1024_S1024x1024_S2048x1024_1_0_0_1_n_n none L W (constant (F := Ideal) S2048x1024 .f32 0x00000000#32) (ix2 r e)
      = ∑ k : Fin 1024, L (ix2 r k) * W (ix2 k e) :=
  Cert.LibPlainDot.matmul_zero_apply dot_S2048x1024_S1024x1024_S2048x1024_1_0_0_1_n_n_wf none L W r e

/-- The payload of the body's one store, at row `r` and column `e` of the block, from the six loaded values (in the
    order the body loads them: activations, first weights, first bias, context row, second weights, second bias). -/
theorem pay_apply (v0 : Vec Ideal S1x2048x1024 .f32) (v3 : Vec Ideal S1024x1024 .bf16) (v6 : Vec Ideal S1x1024 .f32)
    (v10 : Vec Ideal S1x1x1024 .f32) (v15 : Vec Ideal S1024x1024 .bf16) (v18 : Vec Ideal S1x1024 .f32) (r : Fin 2048) (e : Fin 1024) :
    k1_pay1 (F := Ideal) v0 v3 v6 v10 v15 v18 (ix3 (0 : Fin 1) r e)
      = (∑ j : Fin 1024, (((∑ d : Fin 1024, v0 (ix3 (0 : Fin 1) r d) * v3 (ix2 d j)) + v6 (ix2 (0 : Fin 1) j)) * v10 (ix3 (0 : Fin 1) (0 : Fin 1) j)) * v15 (ix2 j e))
        + v18 (ix2 (0 : Fin 1) e) := by
  unfold k1_pay1
  simp only [shapeCast_ab_1ab_apply, addf_apply, mm_apply, truncf_apply, mulf_apply, shapeCast_self, broadcastTo_1b_ab_apply, shapeCast_1ab_ab_apply]

/-- What the body leaves in the output buffer, at row `r` and column `e`, from the six input blocks in window order. -/
theorem out1_6_apply (x0 : Vec Ideal S1x2048x1024 .f32) (x1 : Vec Ideal S1x1x1024 .f32) (x2 : Vec Ideal S1024x1024 .bf16)
    (x3 : Vec Ideal S1x1024 .f32) (x4 : Vec Ideal S1024x1024 .bf16) (x5 : Vec Ideal S1x1024 .f32) (r : Fin 2048) (e : Fin 1024) :
    out1_6 (F := Ideal) x0 x1 x2 x3 x4 x5 (ValueIdx.ix3 (0 : Fin 1) r e)
      = (∑ j : Fin 1024, (((∑ d : Fin 1024, x0 (ValueIdx.ix3 (0 : Fin 1) r d) * x2 (ValueIdx.ix2 d j)) + x3 (ValueIdx.ix2 (0 : Fin 1) j)) * x1 (ValueIdx.ix3 (0 : Fin 1) (0 : Fin 1) j)) * x4 (ValueIdx.ix2 j e)) + x5 (ValueIdx.ix2 (0 : Fin 1) e) := by
  unfold out1_6
  rw [View.canon_unit_zero zeros3]
  simp only [View.ld_unit_zero (S := S1x2048x1024) zeros3, View.ld_unit_zero (S := S1x1x1024) zeros3,
    View.ld_unit_zero (S := S1024x1024) zeros2, View.ld_unit_zero (S := S1x1024) zeros2]
  exact pay_apply x0 x2 x3 x1 x4 x5 r e

/-! ## From the blocks to the whole output array

Point `t` of the 8 × 2 grid works on batch `t / 2` and on rows `(t % 2) · 2048 …` of it: the activations' and the
output's block index there is `(t / 2, t % 2, 0)`, the context row's `(t / 2, 0, 0)`, and the weights and biases are
whole arrays at block index zero. -/

section Final

variable (V : (c : Dev nD) → (b : Ref sig .tc) → Buf (Elt Ideal) ((c : Thread nD τ).loc b))

/-- The block indices at every point, decided over the sixteen points. -/
theorem idx_facts1 : ∀ t : Fin cfg1.N,
    (win1_6.index t (0 : Fin 3) = t.val / 2 ∧ win1_6.index t (1 : Fin 3) = t.val % 2 ∧ win1_6.index t (2 : Fin 3) = 0)
    ∧ (win1_0.index t (0 : Fin 3) = t.val / 2 ∧ win1_0.index t (1 : Fin 3) = t.val % 2 ∧ win1_0.index t (2 : Fin 3) = 0)
    ∧ (win1_1.index t (0 : Fin 3) = t.val / 2 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The batch point `t` works on, -/
def batchOf (t : Fin cfg1.N) : Fin 8 := ⟨t.val / 2, by have h : t.val < 16 := lt_of_lt_of_eq t.isLt N_1; omega⟩
/-- and the row of the batch that row `r` of its block is. -/
def rowOf (t : Fin cfg1.N) (r : Fin 2048) : Fin 4096 := ⟨t.val % 2 * 2048 + r.val, by have := r.isLt; omega⟩

/-- The activations' block at point `t`: rows `(t % 2) · 2048 …` of batch `t / 2`. -/
theorem blk0_apply (c : Dev nD) (t : Fin cfg1.N) (r : Fin 2048) (d : Fin 1024) :
    (iblk1 V c 0 t : Vec Ideal S1x2048x1024 .f32) (ix3 (0 : Fin 1) r d)
      = (V c main_arg0 : S8x4096x1024.Idx → EReal) (ix3 (batchOf t) (rowOf t r) d) := by
  obtain ⟨-, ⟨e0, e1, e2⟩, -⟩ := idx_facts1 t
  unfold iblk1
  rw [View.read_apply]
  show (V c main_arg0 : S8x4096x1024.Idx → EReal) _ = _
  refine congrArg _ (funext fun a => Fin.ext ?_)
  match a with
  | ⟨0, _⟩ => show win1_0.index t (0 : Fin 3) * 1 + 1 * 0 = t.val / 2; omega
  | ⟨1, _⟩ => show win1_0.index t (1 : Fin 3) * 2048 + 1 * r.val = t.val % 2 * 2048 + r.val; omega
  | ⟨2, _⟩ => show win1_0.index t (2 : Fin 3) * 1024 + 1 * d.val = d.val; omega

/-- The context row's block at point `t`: the row of batch `t / 2`. -/
theorem blk1_apply (c : Dev nD) (t : Fin cfg1.N) (j : Fin 1024) :
    (iblk1 V c 1 t : Vec Ideal S1x1x1024 .f32) (ix3 (0 : Fin 1) (0 : Fin 1) j)
      = (V c main_v7 : S8x1x1024.Idx → EReal) (ix3 (batchOf t) (0 : Fin 1) j) := by
  obtain ⟨-, -, ⟨e0, e1, e2⟩, -⟩ := idx_facts1 t
  unfold iblk1
  rw [View.read_apply]
  show (V c main_v7 : S8x1x1024.Idx → EReal) _ = _
  refine congrArg _ (funext fun a => Fin.ext ?_)
  match a with
  | ⟨0, _⟩ => show win1_1.index t (0 : Fin 3) * 1 + 1 * 0 = t.val / 2; omega
  | ⟨1, _⟩ => show win1_1.index t (1 : Fin 3) * 1 + 1 * 0 = 0; omega
  | ⟨2, _⟩ => show win1_1.index t (2 : Fin 3) * 1024 + 1 * j.val = j.val; omega

/-- The weight matrices' and the bias rows' blocks are the whole arrays, at every point. -/
theorem blk2_apply (c : Dev nD) (t : Fin cfg1.N) (p q : Fin 1024) :
    (iblk1 V c 2 t : Vec Ideal S1024x1024 .bf16) (ix2 p q) = (V c main_v5 : S1024x1024.Idx → EReal) (ix2 p q) := by
  obtain ⟨-, -, -, ⟨e0, e1⟩, -⟩ := idx_facts1 t
  unfold iblk1
  rw [View.read_apply]
  show (V c main_v5 : S1024x1024.Idx → EReal) _ = _
  refine congrArg _ (funext fun a => Fin.ext ?_)
  match a with
  | ⟨0, _⟩ => show win1_2.index t (0 : Fin 2) * 1024 + 1 * p.val = p.val; omega
  | ⟨1, _⟩ => show win1_2.index t (1 : Fin 2) * 1024 + 1 * q.val = q.val; omega

theorem blk3_apply (c : Dev nD) (t : Fin cfg1.N) (q : Fin 1024) :
    (iblk1 V c 3 t : Vec Ideal S1x1024 .f32) (ix2 (0 : Fin 1) q) = (V c main_v3 : S1x1024.Idx → EReal) (ix2 (0 : Fin 1) q) := by
  obtain ⟨-, -, -, -, ⟨e0, e1⟩, -⟩ := idx_facts1 t
  unfold iblk1
  rw [View.read_apply]
  show (V c main_v3 : S1x1024.Idx → EReal) _ = _
  refine congrArg _ (funext fun a => Fin.ext ?_)
  match a with
  | ⟨0, _⟩ => show win1_3.index t (0 : Fin 2) * 1 + 1 * 0 = 0; omega
  | ⟨1, _⟩ => show win1_3.index t (1 : Fin 2) * 1024 + 1 * q.val = q.val; omega

theorem blk4_apply (c : Dev nD) (t : Fin cfg1.N) (p q : Fin 1024) :
    (iblk1 V c 4 t : Vec Ideal S1024x1024 .bf16) (ix2 p q) = (V c main_v6 : S1024x1024.Idx → EReal) (ix2 p q) := by
  obtain ⟨-, -, -, -, -, ⟨e0, e1⟩, -⟩ := idx_facts1 t
  unfold iblk1
  rw [View.read_apply]
  show (V c main_v6 : S1024x1024.Idx → EReal) _ = _
  refine congrArg _ (funext fun a => Fin.ext ?_)
  match a with
  | ⟨0, _⟩ => show win1_4.index t (0 : Fin 2) * 1024 + 1 * p.val = p.val; omega
  | ⟨1, _⟩ => show win1_4.index t (1 : Fin 2) * 1024 + 1 * q.val = q.val; omega

theorem blk5_apply (c : Dev nD) (t : Fin cfg1.N) (q : Fin 1024) :
    (iblk1 V c 5 t : Vec Ideal S1x1024 .f32) (ix2 (0 : Fin 1) q) = (V c main_v4 : S1x1024.Idx → EReal) (ix2 (0 : Fin 1) q) := by
  obtain ⟨-, -, -, -, -, -, ⟨e0, e1⟩⟩ := idx_facts1 t
  unfold iblk1
  rw [View.read_apply]
  show (V c main_v4 : S1x1024.Idx → EReal) _ = _
  refine congrArg _ (funext fun a => Fin.ext ?_)
  match a with
  | ⟨0, _⟩ => show win1_5.index t (0 : Fin 2) * 1 + 1 * 0 = 0; omega
  | ⟨1, _⟩ => show win1_5.index t (1 : Fin 2) * 1024 + 1 * q.val = q.val; omega

/-- One entry of the result: row `n` of batch `b` through the first weights, plus the first bias, times the batch's
    context row, through the second weights, plus the second bias, at column `e`. -/
def entry (A : S8x4096x1024.Idx → EReal) (Cx : S8x1x1024.Idx → EReal) (Wv : S1024x1024.Idx → EReal) (bv : S1x1024.Idx → EReal)
    (Wo : S1024x1024.Idx → EReal) (bo : S1x1024.Idx → EReal) (b : Fin 8) (n : Fin 4096) (e : Fin 1024) : EReal :=
  (∑ j : Fin 1024, (((∑ d : Fin 1024, A (ix3 b n d) * Wv (ix2 d j)) + bv (ix2 (0 : Fin 1) j)) * Cx (ix3 b (0 : Fin 1) j)) * Wo (ix2 j e))
    + bo (ix2 (0 : Fin 1) e)

/-- The whole result array, from the arrays as the call finds them. -/
def wholeOut (c : Dev nD) : S8x4096x1024.Idx → EReal := fun i =>
  entry (V c main_arg0) (V c main_v7) (V c main_v5) (V c main_v3) (V c main_v6) (V c main_v4) (i 0) (i 1) (i 2)

/-- What point `t` writes back is its block of `wholeOut`. -/
theorem flushed6_eq (c : Dev nD) (t : Fin cfg1.N) :
    (dat1 V c).flushed 6 t = ((cfg1.win 6).blk t).view.read (Elt Ideal) (wholeOut V c) := by
  obtain ⟨⟨e0, e1, e2⟩, -⟩ := idx_facts1 t
  show (cfg1.win 6).cut (grid1.coords t) ((dat1 V c).after 6 t) = _
  rw [after1_6]
  funext y
  obtain ⟨u, r, e, rfl⟩ : ∃ (u : Fin 1) (r : Fin 2048) (e : Fin 1024), y = ix3 u r e := ⟨y 0, y 1, y 2, eq_ix3 y⟩
  obtain rfl : u = 0 := Subsingleton.elim _ _
  rw [View.read_apply]
  have hi : ((cfg1.win 6).blk t).view.emb (ix3 (0 : Fin 1) r e) = (ix3 (batchOf t) (rowOf t r) e : S8x4096x1024.Idx) := by
    funext a; apply Fin.ext
    match a with
    | ⟨0, _⟩ => show win1_6.index t (0 : Fin 3) * 1 + 1 * 0 = t.val / 2; omega
    | ⟨1, _⟩ => show win1_6.index t (1 : Fin 3) * 2048 + 1 * r.val = t.val % 2 * 2048 + r.val; omega
    | ⟨2, _⟩ => show win1_6.index t (2 : Fin 3) * 1024 + 1 * e.val = e.val; omega
  show out1_6 (F := Ideal) (iblk1 V c 0 t) (iblk1 V c 1 t) (iblk1 V c 2 t) (iblk1 V c 3 t) (iblk1 V c 4 t) (iblk1 V c 5 t) (ix3 (0 : Fin 1) r e)
    = wholeOut V c (((cfg1.win 6).blk t).view.emb (ix3 (0 : Fin 1) r e))
  rw [hi]
  refine (out1_6_apply (iblk1 V c 0 t) (iblk1 V c 1 t) (iblk1 V c 2 t) (iblk1 V c 3 t) (iblk1 V c 4 t) (iblk1 V c 5 t) r e).trans ?_
  simp only [blk0_apply, blk1_apply, blk2_apply, blk3_apply, blk4_apply, blk5_apply]
  rfl

/-- An index of the output array is in point `t`'s block iff each coordinate is in the block's range on its axis. -/
theorem mem_blk6 (t : Fin cfg1.N) (i : S8x4096x1024.Idx) :
    i ∈ ((cfg1.win 6).blk t).view.set ↔ ∀ a : Fin 3, win1_6.index t a * S1x2048x1024.size a ≤ (i a).val ∧ (i a).val < win1_6.index t a * S1x2048x1024.size a + S1x2048x1024.size a := by
  show i ∈ ((View.whole main_v8).slice (win1_6.rect t)).set ↔ _
  rw [View.set_slice_whole, Rect.mem_set_unit]
  exact Iff.rfl

/-- Every index of the output array is in some point's block: `(b, n, ·)` in that of point `2 b + n / 2048`. -/
theorem cover6 (i : S8x4096x1024.Idx) : ∃ t : Fin cfg1.N, (cfg1.win 6).flush t = true ∧ i ∈ ((cfg1.win 6).blk t).view.set := by
  have h0 : (i 0).val < 8 := (i 0).isLt
  have h1 : (i 1).val < 4096 := (i 1).isLt
  have h2 : (i 2).val < 1024 := (i 2).isLt
  have hN : cfg1.N = 16 := N_1
  let t : Fin cfg1.N := ⟨2 * (i 0).val + (i 1).val / 2048, by rw [hN]; omega⟩
  have ht : t.val = 2 * (i 0).val + (i 1).val / 2048 := rfl
  obtain ⟨⟨e0, e1, e2⟩, -⟩ := idx_facts1 t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 2048 ≤ (i 1).val ∧ (i 1).val < win1_6.index t (1 : Fin 3) * 2048 + 2048; omega
  | ⟨2, _⟩ => show win1_6.index t (2 : Fin 3) * 1024 ≤ (i 2).val ∧ (i 2).val < win1_6.index t (2 : Fin 3) * 1024 + 1024; omega

end Final

/-- THE OUTPUT ARRAY after the call, entry by entry, from the arrays as the call finds them: at `(b, n, e)` the
    entry of row `n` of batch `b` at column `e`. -/
theorem final1_6 (V : (c : Dev nD) → (b : Ref sig .tc) → Buf (Elt Ideal) ((c : Thread nD τ).loc b)) (c : Dev nD) (i : S8x4096x1024.Idx) :
    (dat1 V c).arrAt 6 cfg1.N i
      = entry (V c main_arg0) (V c main_v7) (V c main_v5) (V c main_v3) (V c main_v6) (V c main_v4) (i 0) (i 1) (i 2) :=
  congrFun ((dat1 V c).arrAt_eq_of_cover 6 (wholeOut V c) (fun t _ => flushed6_eq V c t) cover6) i

/-- The same at an index given by its coordinates. -/
theorem final1_6_ix (V : (c : Dev nD) → (b : Ref sig .tc) → Buf (Elt Ideal) ((c : Thread nD τ).loc b)) (c : Dev nD)
    (b : Fin 8) (n : Fin 4096) (e : Fin 1024) :
    (dat1 V c).arrAt 6 cfg1.N (ix3 b n e : S8x4096x1024.Idx)
      = entry (V c main_arg0) (V c main_v7) (V c main_v5) (V c main_v3) (V c main_v6) (V c main_v4) b n e :=
  final1_6 V c (ix3 b n e)

end Cert.KernelIdeal.Hand

end
-- ==== Proof.KernelIdeal.HostVals.lean ====
/-
  What the host lines that precede the two kernels leave in the buffers the kernels read, element by element:
  five reshapes that only add or move a unit axis, and two format changes that are the identity on extended reals.
-/
import proofs.«125486_j82703890252111_2_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.ValueIdx

variable (m : (ℓ : Loc nD τ sig) → Buf (Elt Ideal) ℓ) (c : Dev nD)

/-! ## The host results as terms of the launch contents -/

/-- The column `[1024, 1]` laid out as the row `[1, 1024]`. -/
theorem v0_eq : (Gen.V1 m c (Proc.devRef .tc main_v0) : S1x1024.Idx → EReal)
    = shapeCast S1x1024 (m ((c : Thread nD τ).loc main_arg1) : S1024x1.Idx → EReal) shapeCasts_S1024x1_S1x1024 := by
  dsimp only [Gen.V1, Gen.V0]; after_results; rfl
/-- The one number `[1]` as `[1, 1]`. -/
theorem v1_eq : (Gen.V1 m c (Proc.devRef .tc main_v1) : S1x1.Idx → EReal)
    = shapeCast S1x1 (m ((c : Thread nD τ).loc main_arg2) : S1.Idx → EReal) shapeCasts_S1_S1x1 := by
  dsimp only [Gen.V1, Gen.V0]; after_results; rfl
/-- A vector `[1024]` as the row `[1, 1024]`. -/
theorem v2_eq : (Gen.V1 m c (Proc.devRef .tc main_v2) : S1x1024.Idx → EReal)
    = shapeCast S1x1024 (m ((c : Thread nD τ).loc main_arg4) : S1024.Idx → EReal) shapeCasts_S1024_S1x1024 := by
  dsimp only [Gen.V1, Gen.V0]; after_results; rfl
theorem v3_eq : (Gen.V1 m c (Proc.devRef .tc main_v3) : S1x1024.Idx → EReal)
    = shapeCast S1x1024 (m ((c : Thread nD τ).loc main_arg6) : S1024.Idx → EReal) shapeCasts_S1024_S1x1024 := by
  dsimp only [Gen.V1, Gen.V0]; after_results; rfl
theorem v4_eq : (Gen.V1 m c (Proc.devRef .tc main_v4) : S1x1024.Idx → EReal)
    = shapeCast S1x1024 (m ((c : Thread nD τ).loc main_arg8) : S1024.Idx → EReal) shapeCasts_S1024_S1x1024 := by
  dsimp only [Gen.V1, Gen.V0]; after_results; rfl
/-- A matrix narrowed to the shorter format. -/
theorem v5_eq : (Gen.V1 m c (Proc.devRef .tc main_v5) : S1024x1024.Idx → EReal)
    = (truncf .bf16 (m ((c : Thread nD τ).loc main_arg5) : FVec Ideal S1024x1024 .f32) bitsLt_bf16_f32 : FVec Ideal S1024x1024 .bf16) := by
  dsimp only [Gen.V1, Gen.V0]; after_results
theorem v6_eq : (Gen.V1 m c (Proc.devRef .tc main_v6) : S1024x1024.Idx → EReal)
    = (truncf .bf16 (m ((c : Thread nD τ).loc main_arg7) : FVec Ideal S1024x1024 .f32) bitsLt_bf16_f32 : FVec Ideal S1024x1024 .bf16) := by
  dsimp only [Gen.V1, Gen.V0]; after_results

/-! ## Read at an index -/

/-- Element `(0, d)` of the row is element `(d, 0)` of the column: both sit at place `d` in row-major order. -/
theorem v0_apply (d : Fin 1024) :
    (Gen.V1 m c (Proc.devRef .tc main_v0) : S1x1024.Idx → EReal) (ix2 (0 : Fin 1) d)
      = (m ((c : Thread nD τ).loc main_arg1) : S1024x1.Idx → EReal) (ix2 d (0 : Fin 1)) := by
  rw [v0_eq]
  exact shapeCast_apply (s := S1024x1) (t := S1x1024) _ _ (ix2 (0 : Fin 1) d) (ix2 d (0 : Fin 1)) (by
    rw [Shape.rowMajor_val_two, Shape.rowMajor_val_two]
    show d.val * 1 + 0 = 0 * 1024 + d.val
    omega)
theorem v1_apply :
    (Gen.V1 m c (Proc.devRef .tc main_v1) : S1x1.Idx → EReal) (ix2 (0 : Fin 1) (0 : Fin 1))
      = (m ((c : Thread nD τ).loc main_arg2) : S1.Idx → EReal) (ix1 (0 : Fin 1)) := by
  rw [v1_eq]; exact shapeCast_a_1a_apply _ _ _ _
theorem v2_apply (e : Fin 1024) :
    (Gen.V1 m c (Proc.devRef .tc main_v2) : S1x1024.Idx → EReal) (ix2 (0 : Fin 1) e)
      = (m ((c : Thread nD τ).loc main_arg4) : S1024.Idx → EReal) (ix1 e) := by
  rw [v2_eq]; exact shapeCast_a_1a_apply _ _ _ _
theorem v3_apply (j : Fin 1024) :
    (Gen.V1 m c (Proc.devRef .tc main_v3) : S1x1024.Idx → EReal) (ix2 (0 : Fin 1) j)
      = (m ((c : Thread nD τ).loc main_arg6) : S1024.Idx → EReal) (ix1 j) := by
  rw [v3_eq]; exact shapeCast_a_1a_apply _ _ _ _
theorem v4_apply (e : Fin 1024) :
    (Gen.V1 m c (Proc.devRef .tc main_v4) : S1x1024.Idx → EReal) (ix2 (0 : Fin 1) e)
      = (m ((c : Thread nD τ).loc main_arg8) : S1024.Idx → EReal) (ix1 e) := by
  rw [v4_eq]; exact shapeCast_a_1a_apply _ _ _ _
/-- Narrowing the format changes no extended real. -/
theorem v5_apply (d j : Fin 1024) :
    (Gen.V1 m c (Proc.devRef .tc main_v5) : S1024x1024.Idx → EReal) (ix2 d j)
      = (m ((c : Thread nD τ).loc main_arg5) : S1024x1024.Idx → EReal) (ix2 d j) := by
  rw [v5_eq]; rfl
theorem v6_apply (j e : Fin 1024) :
    (Gen.V1 m c (Proc.devRef .tc main_v6) : S1024x1024.Idx → EReal) (ix2 j e)
      = (m ((c : Thread nD τ).loc main_arg7) : S1024x1024.Idx → EReal) (ix2 j e) := by
  rw [v6_eq]; rfl

/-! ## The arguments no host line writes -/

theorem v_arg0 : Gen.V1 m c (Proc.devRef .tc main_arg0) = m ((c : Thread nD τ).loc main_arg0) :=
  (Gen.V1_of m c main_arg0 (by decide)).trans rfl
theorem v_arg3 : Gen.V1 m c (Proc.devRef .tc main_arg3) = m ((c : Thread nD τ).loc main_arg3) :=
  (Gen.V1_of m c main_arg3 (by decide)).trans rfl

end Cert.KernelIdeal.Hand

end
-- ==== Proof.KernelIdeal.Region0Array.lean ====
/-
  Region 0 (the pooling kernel), its output array: the context array is written back one batch row at a time, at
  each batch's second tile only; so once every such tile's row is known, the whole array is known, row by row.
-/
import proofs.«125486_j82703890252111_2_alg».proof.Proof.KernelIdeal.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The output window's blocks -/

/-- The output window's block index at point `t` is `(t / 2, 0, 0)`: one row per batch, the same at both tiles. -/
theorem ctx_index : ∀ t : Fin cfg0.N, win0_5.index t (0 : Fin 3) = t.val / 2 ∧ win0_5.index t (1 : Fin 3) = 0 ∧ win0_5.index t (2 : Fin 3) = 0 :=
  (by decide +kernel : ∀ t : Fin grid0.N, win0_5.index t (0 : Fin 3) = t.val / 2 ∧ win0_5.index t (1 : Fin 3) = 0 ∧ win0_5.index t (2 : Fin 3) = 0)

/-- The array whose row `b` is `G b`. -/
abbrev ctxArr (G : Fin 8 → Fin 1024 → Elt F .f32) : S8x1x1024.Idx → Elt F .f32 := fun i => G (i 0) (i 2)

/-- One row read where a block says: a `[1, 1, 1024]` block `X` that is `G b` along its last axis, read at `y`, is the
    array at any index whose first coordinate is `b` and whose last is `y`'s. -/
theorem row_read (X : S1x1x1024.Idx → Elt F .f32) (G : Fin 8 → Fin 1024 → Elt F .f32) (b : Fin 8)
    (hX : ∀ e : Fin 1024, X (ix3 (0 : Fin 1) (0 : Fin 1) e) = G b e)
    (y : S1x1x1024.Idx) (i : S8x1x1024.Idx) (h0 : (i 0).val = b.val) (h2 : (i 2).val = (y 2).val) :
    X y = ctxArr G i := by
  have hy0 : (y 0).val < 1 := (y 0).isLt
  have hy1 : (y 1).val < 1 := (y 1).isLt
  have hy2 : (y 2).val < 1024 := (y 2).isLt
  have hy : y = ix3 (0 : Fin 1) (0 : Fin 1) (⟨(y 2).val, hy2⟩ : Fin 1024) := by
    funext a
    match a with
    | ⟨0, _⟩ => exact Fin.ext (by show (y 0).val = 0; omega)
    | ⟨1, _⟩ => exact Fin.ext (by show (y 1).val = 0; omega)
    | ⟨2, _⟩ => rfl
  have a0 : (i 0 : Fin 8) = b := Fin.ext h0
  have a2 : (i 2 : Fin 1024) = ⟨(y 2).val, hy2⟩ := Fin.ext h2
  calc X y = X (ix3 (0 : Fin 1) (0 : Fin 1) (⟨(y 2).val, hy2⟩ : Fin 1024)) := congrArg X hy
    _ = G b ⟨(y 2).val, hy2⟩ := hX _
    _ = ctxArr G i := (congrArg₂ G a0 a2).symm

variable (c : Dev nD) (G : Fin 8 → Fin 1024 → Elt F .f32)
  (hG : ∀ (b : Fin 8) (e : Fin 1024) (h : 2 * b.val + 1 < cfg0.N), (outsAt0 V c (2 * b.val + 1) h).1 (ValueIdx.ix3 (0 : Fin 1) (0 : Fin 1) e) = G b e)

include hG in
/-- WHAT BATCH `b`'s SECOND TILE WRITES BACK is row `b` of the array. -/
theorem ctx_flushed_at (b : Fin 8) (h : 2 * b.val + 1 < cfg0.N) :
    (dat0 V c).flushed 5 ⟨2 * b.val + 1, h⟩ = ((cfg0.win 5).blk ⟨2 * b.val + 1, h⟩).view.read (Elt F) (ctxArr G) := by
  show (cfg0.win 5).cut (grid0.coords ⟨2 * b.val + 1, h⟩) ((dat0 V c).after 5 ⟨2 * b.val + 1, h⟩) = _
  rw [after0_5]
  obtain ⟨i0, i1, i2⟩ := ctx_index ⟨2 * b.val + 1, h⟩
  funext y
  rw [View.read_apply]
  refine row_read _ G b (fun e => hG b e h) y _ ?_ ?_
  · show win0_5.index ⟨2 * b.val + 1, h⟩ (0 : Fin 3) * 1 + 1 * (y 0).val = b.val
    have hy : (y 0).val < 1 := (y 0).isLt
    rw [i0]; show (2 * b.val + 1) / 2 * 1 + 1 * (y 0).val = b.val; omega
  · show win0_5.index ⟨2 * b.val + 1, h⟩ (2 : Fin 3) * 1024 + 1 * (y 2).val = (y 2).val
    rw [i2]; omega

include hG in
/-- The same at any point that writes the window back. -/
theorem ctx_flushed_eq (t : Fin cfg0.N) (hf : (cfg0.win 5).flush t = true) :
    (dat0 V c).flushed 5 t = ((cfg0.win 5).blk t).view.read (Elt F) (ctxArr G) := by
  have hN : cfg0.N = 16 := N_0
  have hodd : t.val % 2 = 1 := (flush0_5 t).mp hf
  have ht : t.val < 16 := hN ▸ t.isLt
  obtain ⟨b, h, rfl⟩ : ∃ (b : Fin 8) (h : 2 * b.val + 1 < cfg0.N), t = ⟨2 * b.val + 1, h⟩ :=
    ⟨⟨t.val / 2, by omega⟩, by show 2 * (t.val / 2) + 1 < cfg0.N; omega, Fin.ext (by show t.val = 2 * (t.val / 2) + 1; omega)⟩
  exact ctx_flushed_at V c G hG b h

/-- An index of the array is in point `t`'s block iff each coordinate is in the block's range on its axis. -/
theorem ctx_mem_blk (t : Fin cfg0.N) (i : S8x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v7).slice (win0_5.rect t)).set ↔ _
  rw [View.set_slice_whole, Rect.mem_set_unit]
  exact Iff.rfl

/-- Every index of the array is in the block of its batch's second tile. -/
theorem ctx_cover (i : S8x1x1024.Idx) : ∃ t : Fin cfg0.N, (cfg0.win 5).flush t = true ∧ i ∈ ((cfg0.win 5).blk t).view.set := by
  have hN : cfg0.N = 16 := N_0
  have h0 : (i 0).val < 8 := (i 0).isLt
  have h1 : (i 1).val < 1 := (i 1).isLt
  have h2 : (i 2).val < 1024 := (i 2).isLt
  have ht : 2 * (i 0).val + 1 < cfg0.N := by omega
  refine ⟨⟨2 * (i 0).val + 1, ht⟩, (flush0_5 _).mpr (by show (2 * (i 0).val + 1) % 2 = 1; omega), ?_⟩
  rw [ctx_mem_blk]
  obtain ⟨i0, i1, i2⟩ := ctx_index ⟨2 * (i 0).val + 1, ht⟩
  intro a
  match a with
  | ⟨0, _⟩ =>
    show win0_5.index ⟨2 * (i 0).val + 1, ht⟩ (0 : Fin 3) * 1 ≤ (i 0).val ∧ (i 0).val < win0_5.index ⟨2 * (i 0).val + 1, ht⟩ (0 : Fin 3) * 1 + 1
    rw [i0]; show (2 * (i 0).val + 1) / 2 * 1 ≤ (i 0).val ∧ (i 0).val < (2 * (i 0).val + 1) / 2 * 1 + 1; omega
  | ⟨1, _⟩ =>
    show win0_5.index ⟨2 * (i 0).val + 1, ht⟩ (1 : Fin 3) * 1 ≤ (i 1).val ∧ (i 1).val < win0_5.index ⟨2 * (i 0).val + 1, ht⟩ (1 : Fin 3) * 1 + 1
    rw [i1]; omega
  | ⟨2, _⟩ =>
    show win0_5.index ⟨2 * (i 0).val + 1, ht⟩ (2 : Fin 3) * 1024 ≤ (i 2).val ∧ (i 2).val < win0_5.index ⟨2 * (i 0).val + 1, ht⟩ (2 : Fin 3) * 1024 + 1024
    rw [i2]; omega

include hG in
/-- THE CONTEXT ARRAY after the region: row `b` is `G b`. -/
theorem arr0_5_eq : ((dat0 V c).arrAt 5 cfg0.N : S8x1x1024.Idx → Elt F .f32) = ctxArr G :=
  (dat0 V c).arrAt_eq_of_cover 5 (ctxArr G) (ctx_flushed_eq V c G hG) ctx_cover

end Cert.KernelIdeal.Hand

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

/-- THE CONTEXT ARRAY after the region, at an index: element `(b, 0, e)` is what batch `b`'s second tile left at `e`. -/
theorem arr0_5_of (V : (c : Dev nD) → (b : Ref sig .tc) → Buf (Elt F) ((c : Thread nD τ).loc b)) (c : Dev nD)
    (G : Fin 8 → Fin 1024 → Elt F .f32)
    (hG : ∀ (b : Fin 8) (e : Fin 1024) (h : 2 * b.val + 1 < cfg0.N), (outsAt0 V c (2 * b.val + 1) h).1 (ValueIdx.ix3 (0 : Fin 1) (0 : Fin 1) e) = G b e)
    (b : Fin 8) (e : Fin 1024) :
    ((dat0 V c).arrAt 5 cfg0.N : S8x1x1024.Idx → Elt F .f32) (ValueIdx.ix3 b (0 : Fin 1) e) = G b e :=
  congrFun (arr0_5_eq V c G hG) (ValueIdx.ix3 b (0 : Fin 1) e)

end Cert.KernelIdeal.Hand

end
-- ==== Proof.Spec.lean ====
/-
  The function this certificate's two programs compute at the extended reals, written in the ORDER the
  kernel computes it: per batch, a two-tile running softmax summary of the scores (running maximum,
  running sum of exponentials, running exponential-weighted sum of the rows of x), the pooled row
  divided by the sum and projected once through Wk plus bk, and then, row by row,
  ((x·Wv + bv) ∘ context)·Wo + bo.  Everything is a plain function of coordinates into EReal.
-/
import Idealize.ShloMosaic.PureOps.Ideal
import Idealize.ShloMosaic.Lib.ValueIdx

noncomputable section

namespace Cert.Spec

open Idealize.ShloMosaic Idealize.ShloMosaic.ValueIdx

/-- The word -inf and the word 0.0, as the kernel's literals read at the extended reals. -/
def negInf : EReal := Ideal.ofBits .f32 0xFF800000#32
def zero : EReal := Ideal.ofBits .f32 0x00000000#32

/-- Row `r` of tile `k` (two tiles of 2048 rows) is row `2048 k + r` of the sequence. -/
def row (k : Fin 2) (r : Fin 2048) : Fin 4096 := ⟨k.val * 2048 + r.val, by omega⟩

section
variable (x : Fin 8 → Fin 4096 → Fin 1024 → EReal) (Wi : Fin 1024 → EReal) (bi : EReal)
  (Wk : Fin 1024 → Fin 1024 → EReal) (bk : Fin 1024 → EReal)
  (Wv : Fin 1024 → Fin 1024 → EReal) (bv : Fin 1024 → EReal)
  (Wo : Fin 1024 → Fin 1024 → EReal) (bo : Fin 1024 → EReal)

/-- The score of row `n` of batch `b`: x·Wi + bi. -/
def score (b : Fin 8) (n : Fin 4096) : EReal := (∑ d : Fin 1024, x b n d * Wi d) + bi

/-- The running summary: maximum, sum of exponentials, weighted row sum. -/
structure St where
  m : EReal
  l : EReal
  acc : Fin 1024 → EReal

/-- Before the first tile: (-inf, 0, 0). -/
def init : St := ⟨negInf, zero, fun _ => zero⟩

/-- One tile folded into the summary, exactly as the kernel does it: the tile's maximum as a fold of
    `max` from -inf, the new maximum, the rescaling factor exp(m − m'), the tile's weights exp(s − m'). -/
def step (b : Fin 8) (k : Fin 2) (s : St) : St :=
  let mt : EReal := (Finset.univ : Finset (Fin 2048)).fold max negInf (fun r => score x Wi bi b (row k r))
  let mn : EReal := max s.m mt
  let α : EReal := Ideal.exp (s.m - mn)
  let p : Fin 2048 → EReal := fun r => Ideal.exp (score x Wi bi b (row k r) - mn)
  ⟨mn, α * s.l + ∑ r : Fin 2048, p r, fun d => α * s.acc d + ∑ r : Fin 2048, p r * x b (row k r) d⟩

/-- After both tiles. -/
def fin (b : Fin 8) : St := step x Wi bi b 1 (step x Wi bi b 0 init)

/-- The context row of batch `b`: (acc / l)·Wk + bk. -/
def ctx (b : Fin 8) (e : Fin 1024) : EReal :=
  (∑ d : Fin 1024, Ideal.div ((fin x Wi bi b).acc d) ((fin x Wi bi b).l) * Wk d e) + bk e

/-- The result at (b, n, e), given a context row: ((x·Wv + bv) ∘ context)·Wo + bo. -/
def outOf (cx : Fin 8 → Fin 1024 → EReal) (b : Fin 8) (n : Fin 4096) (e : Fin 1024) : EReal :=
  (∑ j : Fin 1024, (((∑ d : Fin 1024, x b n d * Wv d j) + bv j) * cx b j) * Wo j e) + bo e

/-- The whole function. -/
def kerOut (b : Fin 8) (n : Fin 4096) (e : Fin 1024) : EReal :=
  outOf x Wv bv Wo bo (ctx x Wi bi Wk bk) b n e
end

/-- The same over the nine argument arrays (x [8,4096,1024], Wi [1024,1], bi [1], Wk [1024,1024], bk [1024],
    Wv, bv, Wo, bo), as a result array [8,4096,1024]. -/
def kerArr (a0 : (⟨3, ![8, 4096, 1024]⟩ : Shape).Idx → EReal) (a1 : (⟨2, ![1024, 1]⟩ : Shape).Idx → EReal)
    (a2 : (⟨1, ![1]⟩ : Shape).Idx → EReal) (a3 : (⟨2, ![1024, 1024]⟩ : Shape).Idx → EReal)
    (a4 : (⟨1, ![1024]⟩ : Shape).Idx → EReal) (a5 : (⟨2, ![1024, 1024]⟩ : Shape).Idx → EReal)
    (a6 : (⟨1, ![1024]⟩ : Shape).Idx → EReal) (a7 : (⟨2, ![1024, 1024]⟩ : Shape).Idx → EReal)
    (a8 : (⟨1, ![1024]⟩ : Shape).Idx → EReal) : (⟨3, ![8, 4096, 1024]⟩ : Shape).Idx → EReal :=
  fun i => kerOut (fun b n d => a0 (ix3 b n d)) (fun d => a1 (ix2 d (0 : Fin 1))) (a2 (ix1 (0 : Fin 1)))
    (fun d e => a3 (ix2 d e)) (fun e => a4 (ix1 e)) (fun d j => a5 (ix2 d j)) (fun j => a6 (ix1 j))
    (fun j e => a7 (ix2 j e)) (fun e => a8 (ix1 e)) (i 0) (i 1) (i 2)

end Cert.Spec

end
-- ==== Proof.KernelIdeal.Region0Blocks.lean ====
/-
  Region 0 (the pooling kernel) at the extended reals: the arrays the region finds, read as plain functions of
  coordinates, and what each input window's block is at a grid point.  Point t = 2 b + k of the 8 × 2 grid reads
  rows 2048 k … 2048 k + 2047 of batch b of x (block index (b, k, 0) of blocks [1, 2048, 1024]: a block's
  coordinate is index × size + the coordinate inside the block); the four small operands are whole at every point.
-/
import proofs.«125486_j82703890252111_2_alg».proof.Proof.KernelIdeal.Region0
import proofs.«125486_j82703890252111_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The region-entry arrays as plain functions of coordinates: x [8, 4096, 1024], the score weights as a row
    [1, 1024], the score bias [1, 1], the projection [1024, 1024] and its bias as a row [1, 1024]. -/
abbrev X0 (c : Dev nD) : Fin 8 → Fin 4096 → Fin 1024 → EReal := fun b n d => (V c main_arg0 : S8x4096x1024.Idx → EReal) (ix3 b n d)
abbrev Wi0 (c : Dev nD) : Fin 1024 → EReal := fun d => (V c main_v0 : S1x1024.Idx → EReal) (ix2 (0 : Fin 1) d)
abbrev bi0 (c : Dev nD) : EReal := (V c main_v1 : S1x1.Idx → EReal) (ix2 (0 : Fin 1) (0 : Fin 1))
abbrev Wk0 (c : Dev nD) : Fin 1024 → Fin 1024 → EReal := fun d e => (V c main_arg3 : S1024x1024.Idx → EReal) (ix2 d e)
abbrev bk0 (c : Dev nD) : Fin 1024 → EReal := fun e => (V c main_v2 : S1x1024.Idx → EReal) (ix2 (0 : Fin 1) e)

/-- The block indices over the grid: window 0 is at (t / 2, t % 2, 0); the other four inputs stay at (0, 0). -/
theorem blkIndex0 : ∀ t : Fin cfg0.N, win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- At point 2 b + k the x block's row r is row 2048 k + r of batch b. -/
theorem iblk0_0_apply (c : Dev nD) (t : Fin cfg0.N) (b : Fin 8) (k : Fin 2) (ht : t.val = 2 * b.val + k.val) (r : Fin 2048) (d : Fin 1024) :
    (iblk0 V c 0 t : S1x2048x1024.Idx → EReal) (ix3 (0 : Fin 1) r d) = X0 V c b (Cert.Spec.row k r) d := by
  obtain ⟨e0, e1, e2, -⟩ := blkIndex0 t
  show V c main_arg0 (((cfg0.win 0).blk t).view.emb (ix3 (0 : Fin 1) r d)) = V c main_arg0 (ix3 b (Cert.Spec.row k r) d)
  refine congrArg _ (funext fun a => Fin.ext ?_)
  match a with
  | ⟨0, _⟩ => show win0_0.index t (0 : Fin 3) * 1 + 1 * 0 = b.val; have := k.isLt; omega
  | ⟨1, _⟩ => show win0_0.index t (1 : Fin 3) * 2048 + 1 * r.val = k.val * 2048 + r.val; have := k.isLt; omega
  | ⟨2, _⟩ => show win0_0.index t (2 : Fin 3) * 1024 + 1 * d.val = d.val; omega

/-- The score weights' block is the whole row at every point. -/
theorem iblk0_1_apply (c : Dev nD) (t : Fin cfg0.N) (d : Fin 1024) :
    (iblk0 V c 1 t : S1x1024.Idx → EReal) (ix2 (0 : Fin 1) d) = Wi0 V c d := by
  obtain ⟨-, -, -, e0, e1, -⟩ := blkIndex0 t
  show V c main_v0 (((cfg0.win 1).blk t).view.emb (ix2 (0 : Fin 1) d)) = V c main_v0 (ix2 (0 : Fin 1) d)
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * d.val = d.val; omega

/-- The score bias's block is the whole [1, 1] array at every point. -/
theorem iblk0_2_apply (c : Dev nD) (t : Fin cfg0.N) :
    (iblk0 V c 2 t : S1x1.Idx → EReal) (ix2 (0 : Fin 1) (0 : Fin 1)) = bi0 V c := by
  obtain ⟨-, -, -, -, -, e0, e1, -⟩ := blkIndex0 t
  show V c main_v1 (((cfg0.win 2).blk t).view.emb (ix2 (0 : Fin 1) (0 : Fin 1))) = V c main_v1 (ix2 (0 : Fin 1) (0 : Fin 1))
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The projection's block is the whole matrix at every point. -/
theorem iblk0_3_apply (c : Dev nD) (t : Fin cfg0.N) (d e : Fin 1024) :
    (iblk0 V c 3 t : S1024x1024.Idx → EReal) (ix2 d e) = Wk0 V c d e := by
  obtain ⟨-, -, -, -, -, -, -, e0, e1, -⟩ := blkIndex0 t
  show V c main_arg3 (((cfg0.win 3).blk t).view.emb (ix2 d e)) = V c main_arg3 (ix2 d e)
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The projection bias's block is the whole row at every point. -/
theorem iblk0_4_apply (c : Dev nD) (t : Fin cfg0.N) (e : Fin 1024) :
    (iblk0 V c 4 t : S1x1024.Idx → EReal) (ix2 (0 : Fin 1) e) = bk0 V c e := by
  obtain ⟨-, -, -, -, -, -, -, -, -, e0, e1⟩ := blkIndex0 t
  show V c main_v2 (((cfg0.win 4).blk t).view.emb (ix2 (0 : Fin 1) e)) = V c main_v2 (ix2 (0 : Fin 1) e)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega

end Cert.KernelIdeal.Hand

end
-- ==== Proof.KernelIdeal.Region0Pieces.lean ====
/-
  Region 0 (the pooling kernel): what each case's stores leave, as pure terms of the case's loads, at any float
  instance.  At a batch's first tile the three running quantities are first reset to (-inf, 0, 0) and every later
  load of them reads that reset value back; at its last tile they are loaded at what the first tile left, and the
  context row is computed from the weighted row sum and the sum that the same tile has just stored.
-/
import proofs.«125486_j82703890252111_2_alg».proof.Proof.KernelIdeal.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a two- and of a three-axis rectangle. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl

section Cases
variable (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole)

/-! ## A batch's first tile: from the reset values -/

/-- The running maximum after a first tile: the larger of the reset value -inf and the tile's maximum score. -/
theorem sout0_A_0_eq (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) :
    sout0_A_0 c i arg2 harg2 arg3 harg3 arg4 harg4 arg5 harg5 arg6 harg6 arg7 harg7 arg8 harg8 arg9 harg9 arg10 harg10 hc0 hc1 x0 x1 x2 x3 x4 = k0_pay2 (k0_pay9 x0 x1 x2 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-- The running sum after a first tile: the rescaled reset value 0 plus the tile's sum of weights. -/
theorem sout0_A_1_eq (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) :
    sout0_A_1 c i arg2 harg2 arg3 harg3 arg4 harg4 arg5 harg5 arg6 harg6 arg7 harg7 arg8 harg8 arg9 harg9 arg10 harg10 hc0 hc1 x0 x1 x2 x3 x4 = k0_pay12 x0 x1 x2 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-- The running weighted row sum after a first tile: the rescaled reset row 0 plus the tile's weighted rows. -/
theorem sout0_A_2_eq (hc0 : cond0_0 i) (hc1 : ¬cond0_1 i) (x0 : Vec F S1x2048x1024 .f32) (x1 : Vec F S1x1024 .f32) (x2 : Vec F S1x1 .f32) (x3 : Vec F S1024x1024 .f32) (x4 : Vec F S1x1024 .f32) :
    sout0_A_2 c i arg2 harg2 arg3 harg3 arg4 harg4 arg5 harg5 arg6 harg6 arg7 harg7 arg8 harg8 arg9 harg9 arg10 harg10 hc0 hc1 x0 x1 x2 x3 x4 = k0_pay1 (k0_pay7 x0) (k0_pay13 x0 x1 x2 (k0_pay4 (F := F)) (k0_pay6 (F := F))) (k0_pay14 x0 x1 x2 (k0_pay4 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1024) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-! ## A batch's last tile: from what the first tile left -/

/-- The running maximum after a last tile, from the carried maximum. -/
theorem sout0_B_0_eq (xs0 : Vec F S1x1 .f32) (xs1 : Vec F S1x1 .f32) (xs2 : Vec F S1x1024 .f32) (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) :
    sout0_B_0 c i arg2 harg2 arg3 harg3 arg4 harg4 arg5 harg5 arg6 harg6 arg7 harg7 arg8 harg8 arg9 harg9 arg10 harg10 xs0 xs1 xs2 hc0 hc1 x0 x1 x2 x3 x4 = k0_pay2 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 xs0 xs1 xs2 hc0 hc1 x0 x1 x2 x3 x4)]
  unfold kernelRun0_B
  dsimp only
  sl_unfold_words
  rw [View.canon_unit_zero (S := S1x1) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-- The running sum after a last tile, from the carried maximum and sum. -/
theorem sout0_B_1_eq (xs0 : Vec F S1x1 .f32) (xs1 : Vec F S1x1 .f32) (xs2 : Vec F S1x1024 .f32) (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) :
    sout0_B_1 c i arg2 harg2 arg3 harg3 arg4 harg4 arg5 harg5 arg6 harg6 arg7 harg7 arg8 harg8 arg9 harg9 arg10 harg10 xs0 xs1 xs2 hc0 hc1 x0 x1 x2 x3 x4 = k0_pay12 x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 xs0 xs1 xs2 hc0 hc1 x0 x1 x2 x3 x4)]
  unfold kernelRun0_B
  dsimp only
  sl_unfold_words
  rw [View.canon_unit_zero (S := S1x1) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-- The running weighted row sum after a last tile, from the carried maximum and row sum. -/
theorem sout0_B_2_eq (xs0 : Vec F S1x1 .f32) (xs1 : Vec F S1x1 .f32) (xs2 : Vec F S1x1024 .f32) (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) :
    sout0_B_2 c i arg2 harg2 arg3 harg3 arg4 harg4 arg5 harg5 arg6 harg6 arg7 harg7 arg8 harg8 arg9 harg9 arg10 harg10 xs0 xs1 xs2 hc0 hc1 x0 x1 x2 x3 x4 = k0_pay1 (k0_pay7 x0) (k0_pay13 x0 x1 x2 xs0 xs2) (k0_pay14 x0 x1 x2 xs0) := by
  unfold sout0_B_2
  rw [View.read_writes_eq_canon _ _ _ (scover0_B_2 c i arg2 harg2 arg3 harg3 arg4 harg4 arg5 harg5 arg6 harg6 arg7 harg7 arg8 harg8 arg9 harg9 arg10 harg10 xs0 xs1 xs2 hc0 hc1 x0 x1 x2 x3 x4)]
  unfold kernelRun0_B
  dsimp only
  sl_unfold_words
  rw [View.canon_unit_zero (S := S1x1024) zeroOff2]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

/-- The context row a last tile stores: the final weighted row sum over the final sum, through Wk, plus bk — both
    read back from what this same tile has just stored. -/
theorem out0_B_5_eq (xs0 : Vec F S1x1 .f32) (xs1 : Vec F S1x1 .f32) (xs2 : Vec F S1x1024 .f32) (hc0 : ¬cond0_0 i) (hc1 : cond0_1 i) (x0 : Vec F S1x2048x1024 .f32) (x1 : Vec F S1x1024 .f32) (x2 : Vec F S1x1 .f32) (x3 : Vec F S1024x1024 .f32) (x4 : Vec F S1x1024 .f32) :
    out0_B_5 c i arg2 harg2 arg3 harg3 arg4 harg4 arg5 harg5 arg6 harg6 arg7 harg7 arg8 harg8 arg9 harg9 arg10 harg10 xs0 xs1 xs2 hc0 hc1 x0 x1 x2 x3 x4 = k0_pay3 (k0_pay1 (k0_pay7 x0) (k0_pay13 x0 x1 x2 xs0 xs2) (k0_pay14 x0 x1 x2 xs0)) (k0_pay12 x0 x1 x2 xs0 xs1) x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 xs0 xs1 xs2 hc0 hc1 x0 x1 x2 x3 x4)]
  unfold kernelRun0_B
  dsimp only
  sl_unfold_words
  rw [View.canon_unit_zero (S := S1x1x1024) zeroOff3]
  simp only [View.readCov_unit_zero (S := S1x1) _ zeroOff2, View.readCov_unit_zero (S := S1x1024) _ zeroOff2, View.readAt_eq_ld, harg2.read_unread, harg3.read_unread, harg4.read_unread, harg5.read_unread, harg6.read_unread, harg8.read_unread, harg9.read_unread, harg10.read_unread, View.ld_unit_zero (S := S1x2048x1024) zeroOff3, View.ld_unit_zero (S := S1x1024) zeroOff2, View.ld_unit_zero (S := S1x1) zeroOff2, View.ld_unit_zero (S := S1024x1024) zeroOff2]

end Cases

end Cert.KernelIdeal.Hand

end
-- ==== Proof.KernelIdeal.Region0Payload.lean ====
/-
  The payloads of the first call's body, read at an index on the extended reals.

  One grid point of the first call loads a tile of 2048 rows of x, the score weights and bias, and
  the carried summary (running maximum m, running sum l, running weighted row acc), and stores the
  new summary: the tile's scores s = x·Wi + bi (a row sum), their maximum folded from -inf and maxed
  with m, the factor exp (m - m'), the weights exp (s - m'), l' = factor·l + the column sum of the
  weights, acc' = factor·acc + the column sum of weight·x.  Read entry by entry these are the three
  fields of the specification's step.  The last point of a batch divides acc by l, multiplies the row
  into Wk and adds bk; the first point resets the summary to (-inf, 0, 0).
-/
import proofs.«125486_j82703890252111_2_alg».proof.Proof.Gen.KernelIdeal.Skeleton
import proofs.«125486_j82703890252111_2_alg».proof.Proof.Spec
import proofs.«125486_j82703890252111_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## Reductions along one axis of a rank-2 array, read at an index

The side condition on the accumulator word is typed as the literal equation the payloads carry. -/

/-- The sum along the second axis of an [a, b] array, at row p. -/
theorem r0_rowSum {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  exact Finset.sum_congr rfl fun q _ => congrArg src (funext fun c => Fin.ext (by fin_cases c <;> rfl))

/-- The sum along the first axis of an [a, b] array, at column q. -/
theorem r0_colSum {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  exact Finset.sum_congr rfl fun p _ => congrArg src (funext fun c => Fin.ext (by fin_cases c <;> rfl))

/-- The maximum along the first axis of an [a, b] array, at column q: the fold of max from -inf. -/
theorem r0_colMax {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun p => src (ix2 p q)) := by
  refine (Ideal.multiReduction_maximumf_single src 0xFF800000#32 h hφ hacc (ix1 q)).trans ?_
  have hf : (src ∘ h.lift (ix1 q)) = fun p : Fin a => src (ix2 p q) :=
    funext fun p => congrArg src (funext fun c => Fin.ext (by fin_cases c <;> rfl))
  exact congrArg (fun f => Finset.fold max (Ideal.ofBits .f32 0xFF800000#32) f (Finset.univ : Finset (Fin a))) hf

/-! ## Column layouts -/

section Layout
variable {α : Type}

/-- An [a] array cast to a column [a, 1] reads, at (p, u), the operand at p. -/
theorem r0_cast_a_a1 {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column's entry at p. -/
theorem r0_bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry [1, 1] broadcast to a row [1, b] reads that entry everywhere. -/
theorem r0_bcast_11_1b {b : ℕ} (v : (⟨2, ![1, 1]⟩ : Shape).Idx → α) (h : (⟨2, ![1, 1]⟩ : Shape).Broadcasts ⟨2, ![1, b]⟩)
    (u : Fin 1) (c : Fin b) : broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Layout

/-! ## The payloads read at an index -/

section Read
variable (x0 : FVec Ideal S1x2048x1024 .f32) (x1 : FVec Ideal S1x1024 .f32) (x2 : FVec Ideal S1x1 .f32)
  (xs0 xs1 : FVec Ideal S1x1 .f32) (xs2 : FVec Ideal S1x1024 .f32)

/-- The tile of 2048 rows with its leading unit axis dropped. -/
theorem r0_pay7 (r : Fin 2048) (d : Fin 1024) :
    k0_pay7 (F := Ideal) x0 (ix2 r d) = x0 (ix3 (0 : Fin 1) r d) := by
  unfold k0_pay7
  exact shapeCast_1ab_ab_apply x0 _ r d

/-- The scores of the tile's rows, as a column: the row sums of x·Wi, plus bi. -/
theorem r0_pay8 (r : Fin 2048) :
    k0_pay8 (F := Ideal) x0 x1 x2 (ix2 r (0 : Fin 1))
      = (∑ d : Fin 1024, x0 (ix3 (0 : Fin 1) r d) * x1 (ix2 (0 : Fin 1) d)) + x2 (ix2 (0 : Fin 1) (0 : Fin 1)) := by
  unfold k0_pay8
  simp only [addf_apply, r0_cast_a_a1, broadcastTo_1b_ab_apply, shapeCast_self]
  refine congrArg (fun t => t + x2 (ix2 (0 : Fin 1) (0 : Fin 1))) ?_
  refine (r0_rowSum _ reduces_S2048x1024_S2048 _ _ r).trans ?_
  simp only [mulf_apply, r0_pay7, broadcastTo_1b_ab_apply]

/-- The new running maximum: the old one maxed with the fold of max from -inf over the tile's scores. -/
theorem r0_pay9 :
    k0_pay9 (F := Ideal) x0 x1 x2 xs0 (ix2 (0 : Fin 1) (0 : Fin 1))
      = max (xs0 (ix2 (0 : Fin 1) (0 : Fin 1)))
          ((Finset.univ : Finset (Fin 2048)).fold max (Ideal.ofBits .f32 0xFF800000#32)
            (fun r => k0_pay8 (F := Ideal) x0 x1 x2 (ix2 r (0 : Fin 1)))) := by
  unfold k0_pay9
  simp only [maximumf_apply, shapeCast_a_1a_apply]
  exact congrArg (fun t => max (xs0 (ix2 (0 : Fin 1) (0 : Fin 1))) t) (r0_colMax _ reduces_S2048x1_S1 _ _ (0 : Fin 1))

/-- The rescaling factor exp (m_old - m_new). -/
theorem r0_pay10 :
    k0_pay10 (F := Ideal) x0 x1 x2 xs0 (ix2 (0 : Fin 1) (0 : Fin 1))
      = Ideal.exp (xs0 (ix2 (0 : Fin 1) (0 : Fin 1)) - k0_pay9 (F := Ideal) x0 x1 x2 xs0 (ix2 (0 : Fin 1) (0 : Fin 1))) := rfl

/-- The tile's weights exp (score - m_new), as a column. -/
theorem r0_pay11 (r : Fin 2048) :
    k0_pay11 (F := Ideal) x0 x1 x2 xs0 (ix2 r (0 : Fin 1))
      = Ideal.exp (k0_pay8 (F := Ideal) x0 x1 x2 (ix2 r (0 : Fin 1)) - k0_pay9 (F := Ideal) x0 x1 x2 xs0 (ix2 (0 : Fin 1) (0 : Fin 1))) := by
  unfold k0_pay11
  exact congrArg Ideal.exp (congrArg (k0_pay8 (F := Ideal) x0 x1 x2 (ix2 r (0 : Fin 1)) - ·)
    (broadcastTo_1b_ab_apply _ broadcasts_S1x1_S2048x1 r (0 : Fin 1)))

/-- The new running sum: the rescaled old sum plus the sum of the tile's weights. -/
theorem r0_pay12 :
    k0_pay12 (F := Ideal) x0 x1 x2 xs0 xs1 (ix2 (0 : Fin 1) (0 : Fin 1))
      = k0_pay10 (F := Ideal) x0 x1 x2 xs0 (ix2 (0 : Fin 1) (0 : Fin 1)) * xs1 (ix2 (0 : Fin 1) (0 : Fin 1))
        + ∑ r : Fin 2048, k0_pay11 (F := Ideal) x0 x1 x2 xs0 (ix2 r (0 : Fin 1)) := by
  unfold k0_pay12
  simp only [shapeCast_self, addf_apply, mulf_apply, shapeCast_a_1a_apply]
  exact congrArg (fun t => k0_pay10 (F := Ideal) x0 x1 x2 xs0 (ix2 (0 : Fin 1) (0 : Fin 1)) * xs1 (ix2 (0 : Fin 1) (0 : Fin 1)) + t)
    (r0_colSum _ reduces_S2048x1_S1 _ _ (0 : Fin 1))

/-- The rescaled old weighted row. -/
theorem r0_pay13 (d : Fin 1024) :
    k0_pay13 (F := Ideal) x0 x1 x2 xs0 xs2 (ix2 (0 : Fin 1) d)
      = k0_pay10 (F := Ideal) x0 x1 x2 xs0 (ix2 (0 : Fin 1) (0 : Fin 1)) * xs2 (ix2 (0 : Fin 1) d) := by
  unfold k0_pay13
  exact congrArg (· * xs2 (ix2 (0 : Fin 1) d)) (r0_bcast_11_1b _ broadcasts_S1x1_S1x1024 (0 : Fin 1) d)

/-- The tile's weights broadcast along the row. -/
theorem r0_pay14 (r : Fin 2048) (d : Fin 1024) :
    k0_pay14 (F := Ideal) x0 x1 x2 xs0 (ix2 r d) = k0_pay11 (F := Ideal) x0 x1 x2 xs0 (ix2 r (0 : Fin 1)) := by
  unfold k0_pay14
  exact r0_bcast_a1_ab _ broadcasts_S2048x1_S2048x1024 r d

/-- The new weighted row at column d: the rescaled old one plus the column sum of weight · x. -/
theorem r0_pay1 (v4 : FVec Ideal S2048x1024 .f32) (v34 : FVec Ideal S1x1024 .f32) (v35 : FVec Ideal S2048x1024 .f32)
    (d : Fin 1024) :
    k0_pay1 (F := Ideal) v4 v34 v35 (ix2 (0 : Fin 1) d) = v34 (ix2 (0 : Fin 1) d) + ∑ r : Fin 2048, v35 (ix2 r d) * v4 (ix2 r d) := by
  unfold k0_pay1
  simp only [shapeCast_self, addf_apply, shapeCast_a_1a_apply]
  exact congrArg (fun t => v34 (ix2 (0 : Fin 1) d) + t) (r0_colSum (mulf v35 v4) reduces_S2048x1024_S1024 _ _ d)

end Read

/-! ## The payloads are one step of the running summary

With the tile's rows, the score weights and bias, and the carried summary read off the loaded values,
the three stored payloads are the three fields of the specification's step, operation for operation. -/

section Step
variable (X : Fin 8 → Fin 4096 → Fin 1024 → EReal) (Wi : Fin 1024 → EReal) (bi : EReal) (b : Fin 8) (k : Fin 2)
  (s : Cert.Spec.St)
  (x0 : FVec Ideal S1x2048x1024 .f32) (x1 : FVec Ideal S1x1024 .f32) (x2 : FVec Ideal S1x1 .f32)
  (xs0 xs1 : FVec Ideal S1x1 .f32) (xs2 : FVec Ideal S1x1024 .f32)
  (hx : ∀ (r : Fin 2048) (d : Fin 1024), x0 (ix3 (0 : Fin 1) r d) = X b (Cert.Spec.row k r) d)
  (hw : ∀ d : Fin 1024, x1 (ix2 (0 : Fin 1) d) = Wi d) (hb : x2 (ix2 (0 : Fin 1) (0 : Fin 1)) = bi)
  (hm : xs0 (ix2 (0 : Fin 1) (0 : Fin 1)) = s.m) (hl : xs1 (ix2 (0 : Fin 1) (0 : Fin 1)) = s.l)
  (ha : ∀ d : Fin 1024, xs2 (ix2 (0 : Fin 1) d) = s.acc d)

include hx hw hb in
/-- The tile's scores are the specification's scores of rows 2048 k + r. -/
theorem r0_score (r : Fin 2048) :
    k0_pay8 (F := Ideal) x0 x1 x2 (ix2 r (0 : Fin 1)) = Cert.Spec.score X Wi bi b (Cert.Spec.row k r) := by
  rw [r0_pay8]
  simp only [hx, hw, hb]
  rfl

include hx hw hb hm in
/-- The new running maximum. -/
theorem r0_mnew : k0_pay9 (F := Ideal) x0 x1 x2 xs0 (ix2 (0 : Fin 1) (0 : Fin 1)) = (Cert.Spec.step X Wi bi b k s).m := by
  rw [r0_pay9, hm]
  simp only [r0_score X Wi bi b k x0 x1 x2 hx hw hb]
  rfl

include hx hw hb hm in
/-- The rescaling factor. -/
theorem r0_alpha :
    k0_pay10 (F := Ideal) x0 x1 x2 xs0 (ix2 (0 : Fin 1) (0 : Fin 1)) = Ideal.exp (s.m - (Cert.Spec.step X Wi bi b k s).m) := by
  rw [r0_pay10, hm, r0_mnew X Wi bi b k s x0 x1 x2 xs0 hx hw hb hm]

include hx hw hb hm in
/-- The tile's weights. -/
theorem r0_weight (r : Fin 2048) :
    k0_pay11 (F := Ideal) x0 x1 x2 xs0 (ix2 r (0 : Fin 1))
      = Ideal.exp (Cert.Spec.score X Wi bi b (Cert.Spec.row k r) - (Cert.Spec.step X Wi bi b k s).m) := by
  rw [r0_pay11, r0_score X Wi bi b k x0 x1 x2 hx hw hb, r0_mnew X Wi bi b k s x0 x1 x2 xs0 hx hw hb hm]

include hx hw hb hm in
theorem pay_m : k0_pay2 (F := Ideal) (k0_pay9 (F := Ideal) x0 x1 x2 xs0) (ix2 (0 : Fin 1) (0 : Fin 1)) = (Cert.Spec.step X Wi bi b k s).m := by
  unfold k0_pay2
  exact (congrFun (shapeCast_self _ shapeCasts_S1x1_S1x1) _).trans (r0_mnew X Wi bi b k s x0 x1 x2 xs0 hx hw hb hm)

include hx hw hb hm hl in
theorem pay_l : k0_pay12 (F := Ideal) x0 x1 x2 xs0 xs1 (ix2 (0 : Fin 1) (0 : Fin 1)) = (Cert.Spec.step X Wi bi b k s).l := by
  rw [r0_pay12, r0_alpha X Wi bi b k s x0 x1 x2 xs0 hx hw hb hm, hl]
  simp only [r0_weight X Wi bi b k s x0 x1 x2 xs0 hx hw hb hm]
  rfl

include hx hw hb hm ha in
theorem pay_acc (d : Fin 1024) :
    k0_pay1 (F := Ideal) (k0_pay7 (F := Ideal) x0) (k0_pay13 (F := Ideal) x0 x1 x2 xs0 xs2) (k0_pay14 (F := Ideal) x0 x1 x2 xs0) (ix2 (0 : Fin 1) d)
      = (Cert.Spec.step X Wi bi b k s).acc d := by
  rw [r0_pay1, r0_pay13, r0_alpha X Wi bi b k s x0 x1 x2 xs0 hx hw hb hm, ha]
  simp only [r0_pay14, r0_weight X Wi bi b k s x0 x1 x2 xs0 hx hw hb hm, r0_pay7, hx]
  rfl

end Step

/-! ## The context row and the reset values -/

/-- The product of a [1, 1024] row with a [1024, 1024] matrix into the zero accumulator, at (0, e). -/
theorem r0_mm {φ₁ φ₂ : FTy} (L : FVec Ideal S1x1024 φ₁) (W : FVec Ideal S1024x1024 φ₂) (e : Fin 1024) :
    matmul dot_S1x1024_S1024x1024_S1x1024_1_0_0_1_n_n none L W (constant (F := Ideal) S1x1024 .f32 0x00000000#32) (ix2 (0 : Fin 1) e)
      = ∑ d : Fin 1024, L (ix2 (0 : Fin 1) d) * W (ix2 d e) :=
  Cert.LibPlainDot.matmul_zero_apply dot_S1x1024_S1024x1024_S1x1024_1_0_0_1_n_n_wf none L W (0 : Fin 1) e

theorem pay_ctx (a : FVec Ideal S1x1024 .f32) (l : FVec Ideal S1x1 .f32) (x3 : FVec Ideal S1024x1024 .f32)
    (x4 : FVec Ideal S1x1024 .f32) (e : Fin 1024) :
    k0_pay3 (F := Ideal) a l x3 x4 (ix3 (0 : Fin 1) (0 : Fin 1) e)
      = (∑ d : Fin 1024, Ideal.div (a (ix2 (0 : Fin 1) d)) (l (ix2 (0 : Fin 1) (0 : Fin 1))) * x3 (ix2 d e))
        + x4 (ix2 (0 : Fin 1) e) := by
  unfold k0_pay3
  simp only [shapeCast_ab_1ab_apply, addf_apply, r0_mm, divf_apply, r0_bcast_11_1b, shapeCast_self]

theorem pay_reset_m : (k0_pay4 (F := Ideal)) (ix2 (0 : Fin 1) (0 : Fin 1)) = Cert.Spec.negInf := by
  unfold k0_pay4
  exact (congrFun (shapeCast_self _ shapeCasts_S1x1_S1x1) _).trans rfl

theorem pay_reset_l : (k0_pay5 (F := Ideal)) (ix2 (0 : Fin 1) (0 : Fin 1)) = Cert.Spec.zero := by
  unfold k0_pay5
  exact (congrFun (shapeCast_self _ shapeCasts_S1x1_S1x1) _).trans rfl

theorem pay_reset_acc (d : Fin 1024) : (k0_pay6 (F := Ideal)) (ix2 (0 : Fin 1) d) = Cert.Spec.zero := by
  unfold k0_pay6
  exact (congrFun (shapeCast_self _ shapeCasts_S1x1024_S1x1024) _).trans rfl

end Cert.KernelIdeal.Hand

end
-- ==== Proof.KernelIdeal.Region0Value.lean ====
/-
  Region 0 (the pooling kernel) at the extended reals: the context row it stores is the specification's.  Batch b is
  visited at the two consecutive grid points 2 b (rows 0 … 2047: the running maximum, sum and weighted row sum are
  reset to (-inf, 0, 0) and then updated, which is one step of the specification's running summary from its initial
  value) and 2 b + 1 (rows 2048 … 4095: a second step from what the first left, after which the weighted row sum
  over the sum goes through Wk, plus bk).  The two steps are read off the stores each case leaves, the payloads at
  an index, and the blocks' meaning.
-/
import proofs.«125486_j82703890252111_2_alg».proof.Proof.KernelIdeal.Region0Blocks
import proofs.«125486_j82703890252111_2_alg».proof.Proof.KernelIdeal.Region0Pieces
import proofs.«125486_j82703890252111_2_alg».proof.Proof.KernelIdeal.Region0Payload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## One tile over variables -/

section Tiles
variable (X : Fin 8 → Fin 4096 → Fin 1024 → EReal) (Wi : Fin 1024 → EReal) (bi : EReal)
  (Wk : Fin 1024 → Fin 1024 → EReal) (bk : Fin 1024 → EReal) (b : Fin 8)
  (x0 : FVec Ideal S1x2048x1024 .f32) (x1 : FVec Ideal S1x1024 .f32) (x2 : FVec Ideal S1x1 .f32)
  (x3 : FVec Ideal S1024x1024 .f32) (x4 : FVec Ideal S1x1024 .f32)
  (xs0 xs1 : FVec Ideal S1x1 .f32) (xs2 : FVec Ideal S1x1024 .f32)

/-- A first tile: what it leaves in the three running quantities is one step of the summary from its initial value. -/
theorem firstTile_step
    (hx : ∀ (r : Fin 2048) (d : Fin 1024), x0 (ix3 (0 : Fin 1) r d) = X b (Cert.Spec.row 0 r) d)
    (hw : ∀ d : Fin 1024, x1 (ix2 (0 : Fin 1) d) = Wi d) (hb : x2 (ix2 (0 : Fin 1) (0 : Fin 1)) = bi) :
    k0_pay2 (F := Ideal) (k0_pay9 (F := Ideal) x0 x1 x2 (k0_pay4 (F := Ideal))) (ix2 (0 : Fin 1) (0 : Fin 1))
        = (Cert.Spec.step X Wi bi b 0 Cert.Spec.init).m
      ∧ k0_pay12 (F := Ideal) x0 x1 x2 (k0_pay4 (F := Ideal)) (k0_pay5 (F := Ideal)) (ix2 (0 : Fin 1) (0 : Fin 1))
        = (Cert.Spec.step X Wi bi b 0 Cert.Spec.init).l
      ∧ ∀ d : Fin 1024, k0_pay1 (F := Ideal) (k0_pay7 (F := Ideal) x0) (k0_pay13 (F := Ideal) x0 x1 x2 (k0_pay4 (F := Ideal)) (k0_pay6 (F := Ideal))) (k0_pay14 (F := Ideal) x0 x1 x2 (k0_pay4 (F := Ideal))) (ix2 (0 : Fin 1) d)
        = (Cert.Spec.step X Wi bi b 0 Cert.Spec.init).acc d :=
  ⟨pay_m X Wi bi b 0 Cert.Spec.init x0 x1 x2 (k0_pay4 (F := Ideal)) hx hw hb pay_reset_m,
   pay_l X Wi bi b 0 Cert.Spec.init x0 x1 x2 (k0_pay4 (F := Ideal)) (k0_pay5 (F := Ideal)) hx hw hb pay_reset_m pay_reset_l,
   fun d => pay_acc X Wi bi b 0 Cert.Spec.init x0 x1 x2 (k0_pay4 (F := Ideal)) (k0_pay6 (F := Ideal)) hx hw hb pay_reset_m pay_reset_acc d⟩

/-- A last tile, from what the first tile left: the context row it stores is the specification's. -/
theorem lastTile_ctx
    (hx : ∀ (r : Fin 2048) (d : Fin 1024), x0 (ix3 (0 : Fin 1) r d) = X b (Cert.Spec.row 1 r) d)
    (hw : ∀ d : Fin 1024, x1 (ix2 (0 : Fin 1) d) = Wi d) (hb : x2 (ix2 (0 : Fin 1) (0 : Fin 1)) = bi)
    (h3 : ∀ d e : Fin 1024, x3 (ix2 d e) = Wk d e) (h4 : ∀ e : Fin 1024, x4 (ix2 (0 : Fin 1) e) = bk e)
    (hm : xs0 (ix2 (0 : Fin 1) (0 : Fin 1)) = (Cert.Spec.step X Wi bi b 0 Cert.Spec.init).m)
    (hl : xs1 (ix2 (0 : Fin 1) (0 : Fin 1)) = (Cert.Spec.step X Wi bi b 0 Cert.Spec.init).l)
    (ha : ∀ d : Fin 1024, xs2 (ix2 (0 : Fin 1) d) = (Cert.Spec.step X Wi bi b 0 Cert.Spec.init).acc d) (e : Fin 1024) :
    k0_pay3 (F := Ideal) (k0_pay1 (F := Ideal) (k0_pay7 (F := Ideal) x0) (k0_pay13 (F := Ideal) x0 x1 x2 xs0 xs2) (k0_pay14 (F := Ideal) x0 x1 x2 xs0))
        (k0_pay12 (F := Ideal) x0 x1 x2 xs0 xs1) x3 x4 (ix3 (0 : Fin 1) (0 : Fin 1) e)
      = Cert.Spec.ctx X Wi bi Wk bk b e := by
  refine (pay_ctx _ _ x3 x4 e).trans ?_
  unfold Cert.Spec.ctx Cert.Spec.fin
  rw [pay_l X Wi bi b 1 (Cert.Spec.step X Wi bi b 0 Cert.Spec.init) x0 x1 x2 xs0 xs1 hx hw hb hm hl, h4 e]
  refine congrArg (· + bk e) (Finset.sum_congr rfl fun d _ => ?_)
  rw [pay_acc X Wi bi b 1 (Cert.Spec.step X Wi bi b 0 Cert.Spec.init) x0 x1 x2 xs0 xs2 hx hw hb hm ha d, h3 d e]

end Tiles

/-! ## Along the grid -/

variable (V : (c : Dev nD) → (b : Ref sig .tc) → Buf (Elt Ideal) ((c : Thread nD τ).loc b))

/-- After batch b's first tile (point 2 b) the three running quantities hold one step of the summary. -/
theorem outsAt0_first (c : Dev nD) (b : Fin 8) (t : Fin cfg0.N) (ht : t.val = 2 * b.val) :
    ((outsAt0 V c t.val t.isLt).2.1 : S1x1.Idx → EReal) (ix2 (0 : Fin 1) (0 : Fin 1))
        = (Cert.Spec.step (X0 V c) (Wi0 V c) (bi0 V c) b 0 Cert.Spec.init).m
      ∧ ((outsAt0 V c t.val t.isLt).2.2.1 : S1x1.Idx → EReal) (ix2 (0 : Fin 1) (0 : Fin 1))
        = (Cert.Spec.step (X0 V c) (Wi0 V c) (bi0 V c) b 0 Cert.Spec.init).l
      ∧ ∀ d : Fin 1024, ((outsAt0 V c t.val t.isLt).2.2.2 : S1x1024.Idx → EReal) (ix2 (0 : Fin 1) d)
        = (Cert.Spec.step (X0 V c) (Wi0 V c) (bi0 V c) b 0 Cert.Spec.init).acc d := by
  have h0 : t.val % 2 = 0 := by omega
  have hx : ∀ (r : Fin 2048) (d : Fin 1024), (iblk0 V c 0 t : S1x2048x1024.Idx → EReal) (ix3 (0 : Fin 1) r d) = X0 V c b (Cert.Spec.row 0 r) d :=
    fun r d => iblk0_0_apply V c t b 0 (by show t.val = 2 * b.val + 0; omega) r d
  obtain ⟨sm, sl, sa⟩ := firstTile_step (X0 V c) (Wi0 V c) (bi0 V c) b (iblk0 V c 0 t) (iblk0 V c 1 t) (iblk0 V c 2 t) hx (iblk0_1_apply V c t) (iblk0_2_apply V c t)
  rw [outsAt0_A V c t h0]
  dsimp only
  refine ⟨?_, ?_, fun d => ?_⟩
  · exact (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)) (ix2 (0 : Fin 1) (0 : Fin 1))).trans sm
  · exact (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)) (ix2 (0 : Fin 1) (0 : Fin 1))).trans sl
  · exact (congrFun (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (hc0_of_even t h0) (nhc1_of_even t h0) (iblk0 V c 0 t) (iblk0 V c 1 t) (iblk0 V c 2 t) (iblk0 V c 3 t) (iblk0 V c 4 t)) (ix2 (0 : Fin 1) d)).trans (sa d)

/-- After batch b's last tile (point 2 b + 1) the context buffer holds the specification's context row. -/
theorem outsAt0_last (c : Dev nD) (b : Fin 8) (t : Fin cfg0.N) (ht : t.val = 2 * b.val + 1) (e : Fin 1024) :
    ((outsAt0 V c t.val t.isLt).1 : S1x1x1024.Idx → EReal) (ix3 (0 : Fin 1) (0 : Fin 1) e)
      = Cert.Spec.ctx (X0 V c) (Wi0 V c) (bi0 V c) (Wk0 V c) (bk0 V c) b e := by
  have h0 : ¬t.val % 2 = 0 := by omega
  have hp : t.val - 1 < cfg0.N := Nat.lt_of_le_of_lt (Nat.sub_le _ _) t.isLt
  have hx : ∀ (r : Fin 2048) (d : Fin 1024), (iblk0 V c 0 t : S1x2048x1024.Idx → EReal) (ix3 (0 : Fin 1) r d) = X0 V c b (Cert.Spec.row 1 r) d :=
    fun r d => iblk0_0_apply V c t b 1 (by show t.val = 2 * b.val + 1; omega) r d
  obtain ⟨sm, sl, sa⟩ := outsAt0_first V c b ⟨t.val - 1, hp⟩ (by show t.val - 1 = 2 * b.val; omega)
  rw [outsAt0_B V c t h0]
  dsimp only
  refine (congrFun (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (outsAt0 V c (t.val - 1) hp).2.1 (outsAt0 V c (t.val - 1) hp).2.2.1 (outsAt0 V c (t.val - 1) hp).2.2.2 (nhc0_of_odd t h0) (hc1_of_odd t h0) (iblk0 V c 0 t) (iblk0 V c 1 t) (iblk0 V c 2 t) (iblk0 V c 3 t) (iblk0 V c 4 t)) (ix3 (0 : Fin 1) (0 : Fin 1) e)).trans ?_
  exact lastTile_ctx (X0 V c) (Wi0 V c) (bi0 V c) (Wk0 V c) (bk0 V c) b (iblk0 V c 0 t) (iblk0 V c 1 t) (iblk0 V c 2 t) (iblk0 V c 3 t) (iblk0 V c 4 t)
    (outsAt0 V c (t.val - 1) hp).2.1 (outsAt0 V c (t.val - 1) hp).2.2.1 (outsAt0 V c (t.val - 1) hp).2.2.2
    hx (iblk0_1_apply V c t) (iblk0_2_apply V c t) (iblk0_3_apply V c t) (iblk0_4_apply V c t) sm sl sa e

/-- THE REGION'S VALUE: the context buffer after the last tile of batch b holds the specification's context row. -/
theorem outsAt0_ctx (c : Dev nD) (b : Fin 8) (e : Fin 1024) (h : 2 * b.val + 1 < cfg0.N) :
    (outsAt0 V c (2 * b.val + 1) h).1 (ix3 (0 : Fin 1) (0 : Fin 1) e)
      = Cert.Spec.ctx (X0 V c) (Wi0 V c) (bi0 V c) (Wk0 V c) (bk0 V c) b e :=
  outsAt0_last V c b ⟨2 * b.val + 1, h⟩ rfl e

end Cert.KernelIdeal.Hand

end
-- ==== Proof.KernelIdeal.KernelValue.lean ====
import proofs.«125486_j82703890252111_2_alg».proof.Proof.KernelIdeal.Run
import proofs.«125486_j82703890252111_2_alg».proof.Proof.KernelIdeal.Region1Value
import proofs.«125486_j82703890252111_2_alg».proof.Proof.KernelIdeal.HostVals
import proofs.«125486_j82703890252111_2_alg».proof.Proof.KernelIdeal.Region0Array
import proofs.«125486_j82703890252111_2_alg».proof.Proof.KernelIdeal.Region0Value
import proofs.«125486_j82703890252111_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # The output kernel's result array is the specification's array

The output kernel finds: the activations and the weights' and biases' host copies as the host lines left them — each
a relabelling of an argument array —, and the context array as the pooling kernel's write-backs left it, one row per
batch. Entry by entry its result is then the specification's formula over the nine argument arrays. -/

variable (m : (ℓ : Loc nD τ sig) → Buf (Elt Ideal) ℓ) (c : Dev nD)

/-! ## What the output kernel finds in each array it reads -/

/-- The activations: staged by the pooling kernel and never written back, and written by no host line. -/
theorem found_x (b : Fin 8) (n : Fin 4096) (d : Fin 1024) :
    (V2 m c main_arg0 : S8x4096x1024.Idx → EReal) (ix3 b n d)
      = (m ((c : Thread nD τ).loc main_arg0) : S8x4096x1024.Idx → EReal) (ix3 b n d) :=
  congrFun (((W2_arr m c 0).trans (((dat0 (V1 m) c).arrAt_in 0 rfl _).trans (A_eq0 (V1 m) c 0))).trans (v_arg0 m c)) (ix3 b n d)

/-- The first weight matrix: its narrow-format copy, untouched by the pooling kernel. -/
theorem found_wv (d j : Fin 1024) :
    (V2 m c main_v5 : S1024x1024.Idx → EReal) (ix2 d j)
      = (m ((c : Thread nD τ).loc main_arg5) : S1024x1024.Idx → EReal) (ix2 d j) :=
  (congrFun (W2_of_ne m c main_v5 (by decide)) (ix2 d j)).trans (v5_apply m c d j)

/-- The first bias, as a row. -/
theorem found_bv (j : Fin 1024) :
    (V2 m c main_v3 : S1x1024.Idx → EReal) (ix2 (0 : Fin 1) j)
      = (m ((c : Thread nD τ).loc main_arg6) : S1024.Idx → EReal) (ix1 j) :=
  (congrFun (W2_of_ne m c main_v3 (by decide)) (ix2 (0 : Fin 1) j)).trans (v3_apply m c j)

/-- The second weight matrix: its narrow-format copy. -/
theorem found_wo (j e : Fin 1024) :
    (V2 m c main_v6 : S1024x1024.Idx → EReal) (ix2 j e)
      = (m ((c : Thread nD τ).loc main_arg7) : S1024x1024.Idx → EReal) (ix2 j e) :=
  (congrFun (W2_of_ne m c main_v6 (by decide)) (ix2 j e)).trans (v6_apply m c j e)

/-- The second bias, as a row. -/
theorem found_bo (e : Fin 1024) :
    (V2 m c main_v4 : S1x1024.Idx → EReal) (ix2 (0 : Fin 1) e)
      = (m ((c : Thread nD τ).loc main_arg8) : S1024.Idx → EReal) (ix1 e) :=
  (congrFun (W2_of_ne m c main_v4 (by decide)) (ix2 (0 : Fin 1) e)).trans (v4_apply m c e)

/-- The context array: row `b` is what the pooling kernel's second tile of batch `b` left (`hctx`: the specification's
    context row over the arrays the pooling kernel found), and those arrays are relabellings of the arguments. -/
theorem found_ctx_of
    (hctx : ∀ (b : Fin 8) (e : Fin 1024) (h : 2 * b.val + 1 < cfg0.N),
      (outsAt0 (V1 m) c (2 * b.val + 1) h).1 (ix3 (0 : Fin 1) (0 : Fin 1) e)
        = Cert.Spec.ctx (fun b n d => (V1 m c main_arg0 : S8x4096x1024.Idx → EReal) (ix3 b n d))
            (fun d => (V1 m c main_v0 : S1x1024.Idx → EReal) (ix2 (0 : Fin 1) d))
            ((V1 m c main_v1 : S1x1.Idx → EReal) (ix2 (0 : Fin 1) (0 : Fin 1)))
            (fun d e => (V1 m c main_arg3 : S1024x1024.Idx → EReal) (ix2 d e))
            (fun e => (V1 m c main_v2 : S1x1024.Idx → EReal) (ix2 (0 : Fin 1) e)) b e)
    (b : Fin 8) (j : Fin 1024) :
    (V2 m c main_v7 : S8x1x1024.Idx → EReal) (ix3 b (0 : Fin 1) j)
      = Cert.Spec.ctx (fun b n d => (m ((c : Thread nD τ).loc main_arg0) : S8x4096x1024.Idx → EReal) (ix3 b n d))
          (fun d => (m ((c : Thread nD τ).loc main_arg1) : S1024x1.Idx → EReal) (ix2 d (0 : Fin 1)))
          ((m ((c : Thread nD τ).loc main_arg2) : S1.Idx → EReal) (ix1 (0 : Fin 1)))
          (fun d e => (m ((c : Thread nD τ).loc main_arg3) : S1024x1024.Idx → EReal) (ix2 d e))
          (fun e => (m ((c : Thread nD τ).loc main_arg4) : S1024.Idx → EReal) (ix1 e)) b j := by
  have h5 : (V2 m c main_v7 : S8x1x1024.Idx → EReal) = ((dat0 (V1 m) c).arrAt 5 cfg0.N : S8x1x1024.Idx → EReal) := W2_arr m c 5
  refine (congrFun h5 (ix3 b (0 : Fin 1) j)).trans ?_
  refine (arr0_5_of (V1 m) c _ hctx b j).trans ?_
  have e0 : (fun (b : Fin 8) (n : Fin 4096) (d : Fin 1024) => (V1 m c main_arg0 : S8x4096x1024.Idx → EReal) (ix3 b n d))
      = fun b n d => (m ((c : Thread nD τ).loc main_arg0) : S8x4096x1024.Idx → EReal) (ix3 b n d) :=
    funext fun b => funext fun n => funext fun d => congrFun (v_arg0 m c) (ix3 b n d)
  have e1 : (fun (d : Fin 1024) => (V1 m c main_v0 : S1x1024.Idx → EReal) (ix2 (0 : Fin 1) d))
      = fun d => (m ((c : Thread nD τ).loc main_arg1) : S1024x1.Idx → EReal) (ix2 d (0 : Fin 1)) :=
    funext fun d => v0_apply m c d
  have e2 : (V1 m c main_v1 : S1x1.Idx → EReal) (ix2 (0 : Fin 1) (0 : Fin 1))
      = (m ((c : Thread nD τ).loc main_arg2) : S1.Idx → EReal) (ix1 (0 : Fin 1)) := v1_apply m c
  have e3 : (fun (d e : Fin 1024) => (V1 m c main_arg3 : S1024x1024.Idx → EReal) (ix2 d e))
      = fun d e => (m ((c : Thread nD τ).loc main_arg3) : S1024x1024.Idx → EReal) (ix2 d e) :=
    funext fun d => funext fun e => congrFun (v_arg3 m c) (ix2 d e)
  have e4 : (fun (e : Fin 1024) => (V1 m c main_v2 : S1x1024.Idx → EReal) (ix2 (0 : Fin 1) e))
      = fun e => (m ((c : Thread nD τ).loc main_arg4) : S1024.Idx → EReal) (ix1 e) :=
    funext fun e => v2_apply m c e
  rw [e0, e1, e2, e3, e4]

/-! ## The result array -/

/-- The result array from the context rows' value: entry by entry the specification's formula. -/
theorem kernel_value_of
    (hctx : ∀ (b : Fin 8) (e : Fin 1024) (h : 2 * b.val + 1 < cfg0.N),
      (outsAt0 (V1 m) c (2 * b.val + 1) h).1 (ix3 (0 : Fin 1) (0 : Fin 1) e)
        = Cert.Spec.ctx (fun b n d => (V1 m c main_arg0 : S8x4096x1024.Idx → EReal) (ix3 b n d))
            (fun d => (V1 m c main_v0 : S1x1024.Idx → EReal) (ix2 (0 : Fin 1) d))
            ((V1 m c main_v1 : S1x1.Idx → EReal) (ix2 (0 : Fin 1) (0 : Fin 1)))
            (fun d e => (V1 m c main_arg3 : S1024x1024.Idx → EReal) (ix2 d e))
            (fun e => (V1 m c main_v2 : S1x1024.Idx → EReal) (ix2 (0 : Fin 1) e)) b e) :
    (dat1 (V2 m) c).arrAt 6 cfg1.N
      = Cert.Spec.kerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine funext fun (i : S8x4096x1024.Idx) => ?_
  obtain ⟨b, n, e, rfl⟩ : ∃ (b : Fin 8) (n : Fin 4096) (e : Fin 1024), i = ix3 b n e := ⟨i 0, i 1, i 2, eq_ix3 i⟩
  refine (final1_6_ix (V2 m) c b n e).trans ?_
  unfold Cert.Spec.kerArr
  show entry _ _ _ _ _ _ b n e = Cert.Spec.kerOut _ _ _ _ _ _ _ _ _ b n e
  unfold entry Cert.Spec.kerOut Cert.Spec.outOf
  simp only [found_x m c, found_wv m c, found_bv m c, found_wo m c, found_bo m c, found_ctx_of m c hctx]

/-- THE RESULT ARRAY of the idealized kernel program is the specification's array of the nine argument arrays. -/
theorem kernel_value (m : (ℓ : Loc nD τ sig) → Buf (Elt Ideal) ℓ) (c : Dev nD) :
    (dat1 (V2 m) c).arrAt 6 cfg1.N
      = Cert.Spec.kerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  kernel_value_of m c fun b e h => outsAt0_ctx (V1 m) c b e h

end Cert.KernelIdeal.Hand

end
-- ==== Proof.RefFormula.lean ====
/-
  The reference's formula over plain coordinate functions.  Per batch b: the scores s n = x·Wi + bi of
  the 4096 rows, their maximum M (a fold of max started from -inf, then once more maxed with -inf),
  the exponentials exp (s n - M), the softmax weights exp (s n - M) / (0 + their sum), and the
  context row 0 + sum over n of weight n · (x·Wk + bk) n.
-/
import proofs.«125486_j82703890252111_2_alg».proof.Proof.Spec

noncomputable section

namespace Cert.Bridge

open Idealize.ShloMosaic Cert.Spec

variable (x : Fin 8 → Fin 4096 → Fin 1024 → EReal) (Wi : Fin 1024 → EReal) (bi : EReal)
  (Wk : Fin 1024 → Fin 1024 → EReal) (bk : Fin 1024 → EReal)

/-- The maximum score of batch `b` as the reference takes it: the fold of `max` from -inf over all 4096
    rows, and then once more the maximum with -inf. -/
def refMax (b : Fin 8) : EReal :=
  max negInf ((Finset.univ : Finset (Fin 4096)).fold max negInf (fun n => score x Wi bi b n))

/-- exp (s n - M). -/
def refExp (b : Fin 8) (n : Fin 4096) : EReal := Ideal.exp (score x Wi bi b n - refMax x Wi bi b)

/-- The softmax weight of row `n`: exp (s n - M) divided by the sum (started from 0) of all of them. -/
def refWeight (b : Fin 8) (n : Fin 4096) : EReal :=
  Ideal.div (refExp x Wi bi b n) (zero + ∑ n' : Fin 4096, refExp x Wi bi b n')

/-- The reference's context row: the sum (started from 0) over the rows of weight · (x·Wk + bk). -/
def refCtx (b : Fin 8) (e : Fin 1024) : EReal :=
  zero + ∑ n : Fin 4096, refWeight x Wi bi b n * ((∑ d : Fin 1024, x b n d * Wk d e) + bk e)

end Cert.Bridge

end
-- ==== Proof.RefRead.lean ====
/-
  The reference program read index by index, one named quantity at a time: the scores, the maximum
  over the rows (a host reduction with a maximum body, read as a fold of max from -inf), the
  exponentials, their sum, the softmax weights, the keys, the context row, the values, and the result.
  The last stage, ((x·Wv + bv) ∘ context)·Wo + bo, is the specification's own outer formula, so the
  reference's result is that formula applied to the reference's context row.
-/
import proofs.«125486_j82703890252111_2_alg».proof.Proof.RefFormula
import proofs.«125486_j82703890252111_2_alg».proof.Proof.Gen.ReferenceIdeal.Read

noncomputable section

namespace Cert.Bridge

open Idealize.ShloMosaic Idealize.ShloMosaic.ValueIdx Idealize.SL.Sem
open Cert.ReferenceIdeal Cert.ReferenceIdeal.Gen Cert.ReferenceIdeal.Read Cert.Spec

variable (x0 : (⟨S8x4096x1024, .f32⟩ : BufTy).Contents (Elt Ideal)) (x1 : (⟨S1024x1, .f32⟩ : BufTy).Contents (Elt Ideal))
  (x2 : (⟨S1, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal))

/-- The scores: stage 3 at (b, n, 0) is x·Wi + bi. -/
theorem score_read (b : Fin 8) (n : Fin 4096) :
    val_main_v3 (F := Ideal) x0 x1 x2 (ix3 b n (0 : Fin 1)) = score (fun (b : Fin 8) (n : Fin 4096) (d : Fin 1024) => x0 (ix3 b n d)) (fun (d : Fin 1024) => x1 (ix2 d (0 : Fin 1))) (x2 (ix1 (0 : Fin 1))) b n := by
  rw [val_main_v3_apply, val_main_v0_apply, val_main_v2_apply, val_main_v1_apply]
  have e1 : ∀ k : Fin 1024, lidx_main_v0 (ix3 b n (0 : Fin 1)) k = ix3 b n k := fun k => funext fun a => by
    match a with | ⟨0, _⟩ => rfl | ⟨1, _⟩ => rfl | ⟨2, _⟩ => rfl
  have e2 : ∀ k : Fin 1024, ridx_main_v0 (ix3 b n (0 : Fin 1)) k = ix2 k (0 : Fin 1) := fun k => funext fun a => by
    match a with | ⟨0, _⟩ => rfl | ⟨1, _⟩ => rfl
  have e3 : idx_main_v1 (idx_main_v2 (ix3 b n (0 : Fin 1))) = ix1 (0 : Fin 1) := funext fun a => by
    match a with | ⟨0, _⟩ => rfl
  simp only [e1, e2, e3, Ideal.addf_def]
  rfl

/-- The host's reduction with a maximum body over the row axis (stage 4), at (b, 0): the fold of max,
    started from -inf, over the 4096 entries of column (b, ·, 0). -/
theorem rowMax_read (b : Fin 8) :
    val_main_v4 (F := Ideal) x0 x1 x2 (ix2 b (0 : Fin 1))
      = (Finset.univ : Finset (Fin 4096)).fold max negInf
          (fun n => val_main_v3 (F := Ideal) x0 x1 x2 (ix3 b n (0 : Fin 1))) := by
  unfold val_main_v4
  generalize val_main_v3 (F := Ideal) x0 x1 x2 = y
  have hR : S8x4096x1.Reduces [1] S8x1 := by decide
  refine (Host.reduce_eq_fold_single (FloatOps.maximumf (F := Ideal) (φ := .f32)) y (val_main_cst (F := Ideal))
    reducesTo_S8x4096x1_S8x1_d1 hR h_S_ (ix2 b (0 : Fin 1))).trans ?_
  have hf : (y ∘ hR.lift (ix2 b (0 : Fin 1))) = fun n : Fin 4096 => y (ix3 b n (0 : Fin 1)) :=
    funext fun n => congrArg y (funext fun c => Fin.ext (by fin_cases c <;> rfl))
  exact congrArg (fun f => Finset.fold max negInf f (Finset.univ : Finset (Fin 4096))) hf

/-- The maximum the reference subtracts: stage 6 at (b, 0). -/
theorem max_read (b : Fin 8) :
    val_main_v6 (F := Ideal) x0 x1 x2 (ix2 b (0 : Fin 1)) = refMax (fun (b : Fin 8) (n : Fin 4096) (d : Fin 1024) => x0 (ix3 b n d)) (fun (d : Fin 1024) => x1 (ix2 d (0 : Fin 1))) (x2 (ix1 (0 : Fin 1))) b := by
  rw [val_main_v6_apply, val_main_v5_apply, val_main_cst_0_apply, rowMax_read]
  simp only [score_read, Ideal.maximumf_def, Ideal.ofBits_def]
  rfl

/-- The exponentials: stage 10 at (b, n, 0) is exp (s n - M). -/
theorem exp_read (b : Fin 8) (n : Fin 4096) :
    val_main_v10 (F := Ideal) x0 x1 x2 (ix3 b n (0 : Fin 1)) = refExp (fun (b : Fin 8) (n : Fin 4096) (d : Fin 1024) => x0 (ix3 b n d)) (fun (d : Fin 1024) => x1 (ix2 d (0 : Fin 1))) (x2 (ix1 (0 : Fin 1))) b n := by
  rw [val_main_v10_apply, val_main_v9_apply, val_main_v8_apply, val_main_v7_apply]
  have e1 : idx_main_v7 (idx_main_v8 (ix3 b n (0 : Fin 1))) = ix2 b (0 : Fin 1) := funext fun a => by
    match a with | ⟨0, _⟩ => rfl | ⟨1, _⟩ => rfl
  rw [e1, max_read, score_read]
  rfl

/-- The normaliser: stage 11 at (b, 0) is 0 plus the sum of the exponentials. -/
theorem sum_read (b : Fin 8) :
    val_main_v11 (F := Ideal) x0 x1 x2 (ix2 b (0 : Fin 1))
      = zero + ∑ n : Fin 4096, refExp (fun (b : Fin 8) (n : Fin 4096) (d : Fin 1024) => x0 (ix3 b n d)) (fun (d : Fin 1024) => x1 (ix2 d (0 : Fin 1))) (x2 (ix1 (0 : Fin 1))) b n := by
  rw [val_main_v11_apply, val_main_cst_1_apply]
  have e1 : ∀ k : Fin 4096, idx_main_v11 (ix2 b (0 : Fin 1)) k = ix3 b k (0 : Fin 1) := fun k => funext fun a => by
    match a with | ⟨0, _⟩ => rfl | ⟨1, _⟩ => rfl | ⟨2, _⟩ => rfl
  simp only [e1, exp_read]
  rfl

/-- The softmax weights: stage 14 at (b, n, 0). -/
theorem weight_read (b : Fin 8) (n : Fin 4096) :
    val_main_v14 (F := Ideal) x0 x1 x2 (ix3 b n (0 : Fin 1)) = refWeight (fun (b : Fin 8) (n : Fin 4096) (d : Fin 1024) => x0 (ix3 b n d)) (fun (d : Fin 1024) => x1 (ix2 d (0 : Fin 1))) (x2 (ix1 (0 : Fin 1))) b n := by
  rw [val_main_v14_apply, val_main_v13_apply, val_main_v12_apply]
  have e1 : idx_main_v12 (idx_main_v13 (ix3 b n (0 : Fin 1))) = ix2 b (0 : Fin 1) := funext fun a => by
    match a with | ⟨0, _⟩ => rfl | ⟨1, _⟩ => rfl
  rw [e1, sum_read, exp_read]
  rfl

/-- The keys: stage 18 at (b, n, e) is x·Wk + bk. -/
theorem key_read (b : Fin 8) (n : Fin 4096) (e : Fin 1024) :
    val_main_v18 (F := Ideal) x0 x3 x4 (ix3 b n e)
      = (∑ d : Fin 1024, x0 (ix3 b n d) * x3 (ix2 d e)) + x4 (ix1 e) := by
  rw [val_main_v18_apply, val_main_v15_apply, val_main_v17_apply, val_main_v16_apply]
  have e1 : ∀ k : Fin 1024, lidx_main_v15 (ix3 b n e) k = ix3 b n k := fun k => funext fun a => by
    match a with | ⟨0, _⟩ => rfl | ⟨1, _⟩ => rfl | ⟨2, _⟩ => rfl
  have e2 : ∀ k : Fin 1024, ridx_main_v15 (ix3 b n e) k = ix2 k e := fun k => funext fun a => by
    match a with | ⟨0, _⟩ => rfl | ⟨1, _⟩ => rfl
  have e3 : idx_main_v16 (idx_main_v17 (ix3 b n e)) = ix1 e := funext fun a => by
    match a with | ⟨0, _⟩ => rfl
  simp only [e1, e2, e3, Ideal.addf_def]

/-- The context row: stage 21 at (b, e) is 0 plus the sum over the rows of weight · key. -/
theorem ctx_read (b : Fin 8) (e : Fin 1024) :
    val_main_v21 (F := Ideal) x0 x1 x2 x3 x4 (ix2 b e) = refCtx (fun (b : Fin 8) (n : Fin 4096) (d : Fin 1024) => x0 (ix3 b n d)) (fun (d : Fin 1024) => x1 (ix2 d (0 : Fin 1))) (x2 (ix1 (0 : Fin 1))) (fun (d e : Fin 1024) => x3 (ix2 d e)) (fun (e : Fin 1024) => x4 (ix1 e)) b e := by
  rw [val_main_v21_apply, val_main_cst_2_apply]
  have e1 : ∀ k : Fin 4096, idx_main_v21 (ix2 b e) k = ix3 b k e := fun k => funext fun a => by
    match a with | ⟨0, _⟩ => rfl | ⟨1, _⟩ => rfl | ⟨2, _⟩ => rfl
  have e2 : ∀ k : Fin 4096, idx_main_v19 (ix3 b k e) = ix3 b k (0 : Fin 1) := fun k => funext fun a => by
    match a with | ⟨0, _⟩ => rfl | ⟨1, _⟩ => rfl | ⟨2, _⟩ => rfl
  simp only [e1, val_main_v20_apply, val_main_v19_apply, e2, weight_read, key_read, Ideal.mulf_def]
  rfl

/-- The values: stage 26 at (b, n, j) is x·Wv + bv. -/
theorem value_read (b : Fin 8) (n : Fin 4096) (j : Fin 1024) :
    val_main_v26 (F := Ideal) x0 x5 x6 (ix3 b n j)
      = (∑ d : Fin 1024, x0 (ix3 b n d) * x5 (ix2 d j)) + x6 (ix1 j) := by
  rw [val_main_v26_apply, val_main_v23_apply, val_main_v25_apply, val_main_v24_apply]
  have e1 : ∀ k : Fin 1024, lidx_main_v23 (ix3 b n j) k = ix3 b n k := fun k => funext fun a => by
    match a with | ⟨0, _⟩ => rfl | ⟨1, _⟩ => rfl | ⟨2, _⟩ => rfl
  have e2 : ∀ k : Fin 1024, ridx_main_v23 (ix3 b n j) k = ix2 k j := fun k => funext fun a => by
    match a with | ⟨0, _⟩ => rfl | ⟨1, _⟩ => rfl
  have e3 : idx_main_v24 (idx_main_v25 (ix3 b n j)) = ix1 j := funext fun a => by
    match a with | ⟨0, _⟩ => rfl
  simp only [e1, e2, e3, Ideal.addf_def]

/-- The result at (b, n, e): the specification's outer formula over the reference's context row. -/
theorem out_read (b : Fin 8) (n : Fin 4096) (e : Fin 1024) :
    val_main_v32 (F := Ideal) x0 x1 x2 x3 x4 x5 x6 x7 x8 (ix3 b n e)
      = outOf (fun (b : Fin 8) (n : Fin 4096) (d : Fin 1024) => x0 (ix3 b n d)) (fun (d j : Fin 1024) => x5 (ix2 d j)) (fun (j : Fin 1024) => x6 (ix1 j)) (fun (j e : Fin 1024) => x7 (ix2 j e)) (fun (e : Fin 1024) => x8 (ix1 e))
          (refCtx (fun (b : Fin 8) (n : Fin 4096) (d : Fin 1024) => x0 (ix3 b n d)) (fun (d : Fin 1024) => x1 (ix2 d (0 : Fin 1))) (x2 (ix1 (0 : Fin 1))) (fun (d e : Fin 1024) => x3 (ix2 d e)) (fun (e : Fin 1024) => x4 (ix1 e))) b n e := by
  rw [val_main_v32_apply, val_main_v29_apply, val_main_v31_apply, val_main_v30_apply]
  have e1 : ∀ k : Fin 1024, lidx_main_v29 (ix3 b n e) k = ix3 b n k := fun k => funext fun a => by
    match a with | ⟨0, _⟩ => rfl | ⟨1, _⟩ => rfl | ⟨2, _⟩ => rfl
  have e2 : ∀ k : Fin 1024, ridx_main_v29 (ix3 b n e) k = ix2 k e := fun k => funext fun a => by
    match a with | ⟨0, _⟩ => rfl | ⟨1, _⟩ => rfl
  have e3 : idx_main_v30 (idx_main_v31 (ix3 b n e)) = ix1 e := funext fun a => by
    match a with | ⟨0, _⟩ => rfl
  have e4 : ∀ k : Fin 1024, idx_main_v22 (idx_main_v27 (ix3 b n k)) = ix2 b k := fun k => funext fun a => by
    match a with | ⟨0, _⟩ => rfl | ⟨1, _⟩ => rfl
  simp only [e1, e2, e3, val_main_v28_apply, val_main_v27_apply, val_main_v22_apply, e4, ctx_read, value_read,
    Ideal.mulf_def, Ideal.addf_def]
  rfl

/-- The reference's result array. -/
theorem reference_read :
    val_main_v32 (F := Ideal) x0 x1 x2 x3 x4 x5 x6 x7 x8
      = fun i => outOf (fun (b : Fin 8) (n : Fin 4096) (d : Fin 1024) => x0 (ix3 b n d)) (fun (d j : Fin 1024) => x5 (ix2 d j)) (fun (j : Fin 1024) => x6 (ix1 j)) (fun (j e : Fin 1024) => x7 (ix2 j e)) (fun (e : Fin 1024) => x8 (ix1 e))
          (refCtx (fun (b : Fin 8) (n : Fin 4096) (d : Fin 1024) => x0 (ix3 b n d)) (fun (d : Fin 1024) => x1 (ix2 d (0 : Fin 1))) (x2 (ix1 (0 : Fin 1))) (fun (d e : Fin 1024) => x3 (ix2 d e)) (fun (e : Fin 1024) => x4 (ix1 e))) (i 0) (i 1) (i 2) :=
  funext fun i => (congrArg (val_main_v32 (F := Ideal) x0 x1 x2 x3 x4 x5 x6 x7 x8) (eq_ix3 i)).trans
    (out_read x0 x1 x2 x3 x4 x5 x6 x7 x8 (i 0) (i 1) (i 2))

end Cert.Bridge

end
-- ==== Proof.LibOnlineSoftmax.lean ====
import Idealize.ShloMosaic.PureOps.Ideal

/-!
# The online-softmax algebra over the extended reals

A running triple `(m, l, a)` summarises a finite set `J` of keys with real scores `s` and real
values `v`: `m` is the maximum score (`⊥` when `J` is empty), `l = Σ exp (s i - m)` and
`a = Σ exp (s i - m) · v i`.  Absorbing a further block of keys rescales the old `l` and `a` by
`exp (m - m')`, where `m'` is the new maximum, and adds the block's own terms; after all keys
`a / l` is the softmax-weighted sum of `v`.  All algebra is carried out in `ℝ` and coerced, since
multiplication on `EReal` does not distribute over addition at the infinities.
-/

namespace OnlineSoftmax
open Idealize.ShloMosaic

variable {ι : Type*} [DecidableEq ι]

/-- The coercion `ℝ → EReal` commutes with finite sums. -/
theorem coe_sum {α : Type*} (J : Finset α) (f : α → ℝ) :
    ((∑ i ∈ J, f i : ℝ) : EReal) = ∑ i ∈ J, (f i : EReal) := by
  classical
  induction J using Finset.induction_on with
  | empty => simp
  | insert a J ha ih => rw [Finset.sum_insert ha, Finset.sum_insert ha, EReal.coe_add, ih]

/-- The supremum of finitely many real numbers over a nonempty index set, taken in `EReal`,
    is (the coercion of) a real number: it is attained. -/
theorem sup_coe_real {α : Type*} (s : α → ℝ) (J : Finset α) (hJ : J.Nonempty) :
    ∃ r : ℝ, (J.sup fun i => (s i : EReal)) = (r : EReal) := by
  obtain ⟨i, _, hi⟩ := Finset.exists_mem_eq_sup J hJ (fun i => (s i : EReal))
  exact ⟨s i, hi⟩

/-- `exp (x - y)` for real `x`, `y` is the coercion of the real exponential. -/
theorem exp_sub_coe (x y : ℝ) :
    Ideal.exp ((x : EReal) - (y : EReal)) = ((Real.exp (x - y) : ℝ) : EReal) := by
  rw [← EReal.coe_sub, Ideal.exp_coe]

/-- Rescaling: if `m` is the maximum of the scores in `J` and `r'` is any real, then
    `exp (m - r') · Σ_{i ∈ J} exp (s i - m) · w i = Σ_{i ∈ J} exp (s i - r') · w i`.
    For empty `J` both sides are `0`; otherwise `m` is real and this is
    `exp (m - r') · exp (s i - m) = exp (s i - r')` summed in `ℝ`. -/
theorem rescale {α : Type*} (s w : α → ℝ) (J : Finset α) (m : EReal) (r' : ℝ)
    (hm : m = J.sup fun i => (s i : EReal)) :
    Ideal.exp (m - (r' : EReal)) * ∑ i ∈ J, Ideal.exp ((s i : EReal) - m) * (w i : EReal)
      = ∑ i ∈ J, Ideal.exp ((s i : EReal) - (r' : EReal)) * (w i : EReal) := by
  rcases J.eq_empty_or_nonempty with hJ | hJ
  · subst hJ; simp
  · obtain ⟨r, hr⟩ := sup_coe_real s J hJ
    rw [hm, hr]
    simp only [exp_sub_coe, ← EReal.coe_mul, ← coe_sum]
    rw [Finset.mul_sum]
    congr 1
    refine Finset.sum_congr rfl fun i _ => ?_
    rw [← mul_assoc, ← Real.exp_add]
    congr 2
    ring

/-- The same rescaling for the normaliser (weights `1`). -/
theorem rescale_one {α : Type*} (s : α → ℝ) (J : Finset α) (m : EReal) (r' : ℝ)
    (hm : m = J.sup fun i => (s i : EReal)) :
    Ideal.exp (m - (r' : EReal)) * ∑ i ∈ J, Ideal.exp ((s i : EReal) - m)
      = ∑ i ∈ J, Ideal.exp ((s i : EReal) - (r' : EReal)) := by
  have h := rescale s (fun _ => (1 : ℝ)) J m r' hm
  simpa using h

/-- (m, l, a) summarise the keys in J: m their maximum (⊥ for no key), l = Σ exp(s - m),
    a = Σ exp(s - m)·v. -/
structure Summ (s v : ι → ℝ) (J : Finset ι) (m l a : EReal) : Prop where
  hm : m = J.sup fun i => (s i : EReal)
  hl : l = ∑ i ∈ J, Ideal.exp ((s i : EReal) - m)
  ha : a = ∑ i ∈ J, Ideal.exp ((s i : EReal) - m) * (v i : EReal)

/-- No keys: the maximum is `⊥` and both sums are empty. -/
theorem summ_empty (s v : ι → ℝ) : Summ s v ∅ ⊥ 0 0 :=
  ⟨by simp, by simp, by simp⟩

/-- One block step.  If `(m, l, a)` summarise `J` and a nonempty block of new keys `e k`
    (pairwise distinct, none in `J`) has maximum score `b`, then with `m' = max m b` the triple
    `(m', exp (m - m') · l + Σ_k exp (s (e k) - m'),
      exp (m - m') · a + Σ_k exp (s (e k) - m') · v (e k))`
    summarises `J` together with the block. -/
theorem summ_step {κ : Type*} [Fintype κ] [Nonempty κ] (s v : ι → ℝ) (J : Finset ι) (e : κ → ι)
    (he : Function.Injective e) (hdisj : ∀ k, e k ∉ J) {m l a : EReal} (h : Summ s v J m l a) :
    Summ s v (J ∪ Finset.univ.image e)
      (max m (Finset.univ.sup fun k => (s (e k) : EReal)))
      (Ideal.exp (m - max m (Finset.univ.sup fun k => (s (e k) : EReal))) * l
        + ∑ k, Ideal.exp ((s (e k) : EReal) - max m (Finset.univ.sup fun k => (s (e k) : EReal))))
      (Ideal.exp (m - max m (Finset.univ.sup fun k => (s (e k) : EReal))) * a
        + ∑ k, Ideal.exp ((s (e k) : EReal) - max m (Finset.univ.sup fun k => (s (e k) : EReal)))
            * (v (e k) : EReal)) := by
  classical
  obtain ⟨hm, hl, ha⟩ := h
  -- the block maximum is real, hence so is the new maximum
  obtain ⟨rb, hrb⟩ := sup_coe_real (fun k => s (e k)) Finset.univ Finset.univ_nonempty
  obtain ⟨r', hr'⟩ : ∃ r' : ℝ, max m (Finset.univ.sup fun k => (s (e k) : EReal)) = (r' : EReal) := by
    rw [hrb]
    rcases J.eq_empty_or_nonempty with hJ | hJ
    · subst hJ
      refine ⟨rb, ?_⟩
      rw [hm, Finset.sup_empty]
      exact max_eq_right bot_le
    · obtain ⟨r, hr⟩ := sup_coe_real s J hJ
      refine ⟨max r rb, ?_⟩
      rw [hm, hr]
      exact (EReal.coe_strictMono.monotone.map_max).symm
  have hd : Disjoint J (Finset.univ.image e) := by
    rw [Finset.disjoint_left]
    intro i hi hi'
    obtain ⟨k, _, rfl⟩ := Finset.mem_image.mp hi'
    exact hdisj k hi
  have hinj : Set.InjOn e (Finset.univ : Finset κ) := he.injOn
  rw [hr']
  refine ⟨?_, ?_, ?_⟩
  · rw [← hr', Finset.sup_union, Finset.sup_image, hm]
    rfl
  · rw [Finset.sum_union hd, Finset.sum_image hinj, hl, rescale_one s J m r' hm]
  · rw [Finset.sum_union hd, Finset.sum_image hinj, ha, rescale s v J m r' hm]

/-- Final step.  If `(m, l, a)` summarise all keys of a nonempty index type, then `a / l` is the
    softmax-weighted sum `Σ_i (exp (s i - m) / Σ_k exp (s k - m)) · v i`: `m` is real, `l` is the
    coercion of a positive real, so both divisions are multiplications by the real `1 / l` and the
    identity is `(Σ_i x i · v i) · c = Σ_i x i · c · v i` in `ℝ`. -/
theorem summ_final [Fintype ι] [Nonempty ι] (s v : ι → ℝ) {m l a : EReal}
    (h : Summ s v Finset.univ m l a) :
    Ideal.div a l = ∑ i, Ideal.div (Ideal.exp ((s i : EReal) - m))
      (∑ k, Ideal.exp ((s k : EReal) - m)) * (v i : EReal) := by
  classical
  obtain ⟨hm, hl, ha⟩ := h
  obtain ⟨r, hr⟩ := sup_coe_real s Finset.univ Finset.univ_nonempty
  rw [hr] at hm
  subst hm
  have hpos : 0 < ∑ k, Real.exp (s k - r) :=
    Finset.sum_pos (fun k _ => Real.exp_pos _) Finset.univ_nonempty
  have hne : (∑ k, Real.exp (s k - r)) ≠ 0 := ne_of_gt hpos
  have hL : (∑ k, Ideal.exp ((s k : EReal) - (r : EReal)))
      = ((∑ k, Real.exp (s k - r) : ℝ) : EReal) := by
    simp only [exp_sub_coe, ← coe_sum]
  rw [hl, ha, hL]
  simp only [Ideal.div_coe hne, exp_sub_coe, ← EReal.coe_mul, ← coe_sum]
  congr 1
  rw [Finset.sum_mul]
  refine Finset.sum_congr rfl fun i _ => ?_
  ring

end OnlineSoftmax
-- ==== Proof.Algebra.lean ====
/-
  For real (finite) inputs the kernel's order of computing the context row gives the reference's.

  The kernel folds the 4096 rows in two tiles of 2048 into a running summary (m, l, acc): the maximum
  score so far, the sum of exp (s - m), and the exp (s - m)-weighted sum of the rows of x, rescaling
  the old sums by exp (m_old - m_new) at each tile.  With real scores, after both tiles m is the
  maximum M of all scores, l = Σ_n exp (s n - M) and acc d = Σ_n exp (s n - M)·x n d, and l is a
  positive real.  The reference subtracts the same M, so its weights are exp (s n - M) / l, and
      Σ_n w n · ((Σ_d x n d·Wk d e) + bk e) = (Σ_d (acc d / l)·Wk d e) + bk e
  by distributivity over finite sums of reals, exchanging the two sums, and Σ_n w n = 1.  All of the
  algebra is done in ℝ and coerced: multiplication does not distribute over addition at the infinities.
-/
import proofs.«125486_j82703890252111_2_alg».proof.Proof.RefFormula
import proofs.«125486_j82703890252111_2_alg».proof.Proof.LibOnlineSoftmax

noncomputable section

namespace Cert.Bridge

open Idealize.ShloMosaic Cert.Spec OnlineSoftmax

/-- The word -inf is the bottom element of the extended reals. -/
theorem negInf_eq_bot : negInf = ⊥ := by simp [negInf, Ideal.ofBits, Ideal.ieee]

/-- The word 0.0 is zero. -/
theorem zero_eq_zero : zero = 0 := by simp [zero, Ideal.ofBits, Ideal.ieee]

/-- A fold of `max` started from the bottom element is the supremum. -/
theorem fold_max_bot {α : Type*} (J : Finset α) (f : α → EReal) : J.fold max ⊥ f = J.sup f := by
  classical
  induction J using Finset.induction_on with
  | empty => simp
  | insert a J ha ih => rw [Finset.fold_insert ha, Finset.sup_insert, ih]

/-! ## The two tiles partition the rows -/

theorem row_zero_val (r : Fin 2048) : (row 0 r).val = r.val := by simp [row]
theorem row_one_val (r : Fin 2048) : (row 1 r).val = 2048 + r.val := by simp [row]

theorem row_injective (k : Fin 2) : Function.Injective (row k) := by
  intro r r' h
  have h' := congrArg Fin.val h
  simp only [row] at h'
  exact Fin.ext (by omega)

theorem row_one_ne_row_zero (r r' : Fin 2048) : row 1 r ≠ row 0 r' := by
  intro h
  have h' := congrArg Fin.val h
  rw [row_one_val, row_zero_val] at h'
  have := r'.isLt
  omega

theorem rows_cover :
    ((∅ : Finset (Fin 4096)) ∪ Finset.univ.image (row 0)) ∪ Finset.univ.image (row 1) = Finset.univ := by
  ext n
  simp only [Finset.empty_union, Finset.mem_union, Finset.mem_image, Finset.mem_univ, true_and, iff_true]
  by_cases h : n.val < 2048
  · exact Or.inl ⟨⟨n.val, h⟩, Fin.ext (row_zero_val _)⟩
  · refine Or.inr ⟨⟨n.val - 2048, by have := n.isLt; omega⟩, Fin.ext ?_⟩
    rw [row_one_val]
    show 2048 + (n.val - 2048) = n.val
    omega

/-! ## The identity in ℝ -/

/-- With weights E n / L, where L = Σ E ≠ 0:
    Σ_n (E n / L)·((Σ_d x n d·k d) + c) = (Σ_d ((Σ_n E n·x n d) / L)·k d) + c. -/
theorem real_ctx {ι κ : Type*} [Fintype ι] [Fintype κ] (E : ι → ℝ) (x : ι → κ → ℝ) (k : κ → ℝ) (c L : ℝ)
    (hL : ∑ n, E n = L) (hne : L ≠ 0) :
    ∑ n, E n * (1 / L) * ((∑ d, x n d * k d) + c) = (∑ d, (∑ n, E n * x n d) * (1 / L) * k d) + c := by
  have hw : ∑ n, E n * (1 / L) = 1 := by rw [← Finset.sum_mul, hL]; field_simp
  calc ∑ n, E n * (1 / L) * ((∑ d, x n d * k d) + c)
      = (∑ n, ∑ d, E n * (1 / L) * x n d * k d) + (∑ n, E n * (1 / L)) * c := by
        rw [Finset.sum_mul, ← Finset.sum_add_distrib]
        refine Finset.sum_congr rfl fun n _ => ?_
        rw [mul_add, Finset.mul_sum]
        congr 1
        exact Finset.sum_congr rfl fun d _ => by ring
    _ = (∑ d, ∑ n, E n * (1 / L) * x n d * k d) + c := by rw [Finset.sum_comm, hw, one_mul]
    _ = (∑ d, (∑ n, E n * x n d) * (1 / L) * k d) + c := by
        congr 1
        refine Finset.sum_congr rfl fun d _ => ?_
        rw [Finset.sum_mul, Finset.sum_mul]
        exact Finset.sum_congr rfl fun n _ => by ring

/-! ## Real inputs -/

section
variable (xr : Fin 8 → Fin 4096 → Fin 1024 → ℝ) (wi : Fin 1024 → ℝ) (bir : ℝ)
  (wk : Fin 1024 → Fin 1024 → ℝ) (bkr : Fin 1024 → ℝ)

/-- The score as a real number. -/
def sr (b : Fin 8) (n : Fin 4096) : ℝ := (∑ d : Fin 1024, xr b n d * wi d) + bir

theorem score_coe (b : Fin 8) (n : Fin 4096) :
    score (fun (b : Fin 8) (n : Fin 4096) (d : Fin 1024) => ((xr b n d : ℝ) : EReal)) (fun (d : Fin 1024) => ((wi d : ℝ) : EReal)) ((bir : ℝ) : EReal) b n = ((sr xr wi bir b n : ℝ) : EReal) := by
  unfold score sr
  simp only [EReal.coe_add, coe_sum, EReal.coe_mul]

/-- One tile keeps the summary: if (m, l, acc d) summarise the rows in J, then after folding in tile k
    (whose rows are not in J) they summarise J together with the tile's rows. -/
theorem step_summ (b : Fin 8) (k : Fin 2) (J : Finset (Fin 4096)) (hdisj : ∀ r, row k r ∉ J) (st : St)
    (h : ∀ d, Summ (sr xr wi bir b) (fun n => xr b n d) J st.m st.l (st.acc d)) (d : Fin 1024) :
    Summ (sr xr wi bir b) (fun n => xr b n d) (J ∪ Finset.univ.image (row k))
      (step (fun (b : Fin 8) (n : Fin 4096) (d : Fin 1024) => ((xr b n d : ℝ) : EReal)) (fun (d : Fin 1024) => ((wi d : ℝ) : EReal)) ((bir : ℝ) : EReal) b k st).m (step (fun (b : Fin 8) (n : Fin 4096) (d : Fin 1024) => ((xr b n d : ℝ) : EReal)) (fun (d : Fin 1024) => ((wi d : ℝ) : EReal)) ((bir : ℝ) : EReal) b k st).l
      ((step (fun (b : Fin 8) (n : Fin 4096) (d : Fin 1024) => ((xr b n d : ℝ) : EReal)) (fun (d : Fin 1024) => ((wi d : ℝ) : EReal)) ((bir : ℝ) : EReal) b k st).acc d) := by
  have hf : (Finset.univ : Finset (Fin 2048)).fold max negInf (fun r => ((sr xr wi bir b (row k r) : ℝ) : EReal))
      = Finset.univ.sup fun r => ((sr xr wi bir b (row k r) : ℝ) : EReal) := by
    rw [negInf_eq_bot, fold_max_bot]
  have key := summ_step (sr xr wi bir b) (fun n => xr b n d) J (row k) (row_injective k) hdisj (h d)
  unfold step
  simp only [score_coe, hf]
  exact key

/-- After both tiles the summary is that of all 4096 rows. -/
theorem fin_summ (b : Fin 8) (d : Fin 1024) :
    Summ (sr xr wi bir b) (fun n => xr b n d) Finset.univ (fin (fun (b : Fin 8) (n : Fin 4096) (d : Fin 1024) => ((xr b n d : ℝ) : EReal)) (fun (d : Fin 1024) => ((wi d : ℝ) : EReal)) ((bir : ℝ) : EReal) b).m (fin (fun (b : Fin 8) (n : Fin 4096) (d : Fin 1024) => ((xr b n d : ℝ) : EReal)) (fun (d : Fin 1024) => ((wi d : ℝ) : EReal)) ((bir : ℝ) : EReal) b).l ((fin (fun (b : Fin 8) (n : Fin 4096) (d : Fin 1024) => ((xr b n d : ℝ) : EReal)) (fun (d : Fin 1024) => ((wi d : ℝ) : EReal)) ((bir : ℝ) : EReal) b).acc d) := by
  have h0 : ∀ d : Fin 1024, Summ (sr xr wi bir b) (fun n => xr b n d) ∅ init.m init.l (init.acc d) := fun d => by
    show Summ _ _ ∅ negInf zero zero
    rw [negInf_eq_bot, zero_eq_zero]
    exact summ_empty _ _
  have h1 := step_summ xr wi bir b 0 ∅ (fun r => Finset.notMem_empty _) init h0
  have hd : ∀ r, row 1 r ∉ (∅ : Finset (Fin 4096)) ∪ Finset.univ.image (row 0) := fun r hr => by
    simp only [Finset.empty_union, Finset.mem_image, Finset.mem_univ, true_and] at hr
    obtain ⟨r', hr'⟩ := hr
    exact row_one_ne_row_zero r r' hr'.symm
  have h2 := step_summ xr wi bir b 1 _ hd _ h1 d
  rw [rows_cover] at h2
  exact h2

/-- The reference's context row is the kernel's. -/
theorem ctx_eq (b : Fin 8) (e : Fin 1024) :
    refCtx (fun (b : Fin 8) (n : Fin 4096) (d : Fin 1024) => ((xr b n d : ℝ) : EReal)) (fun (d : Fin 1024) => ((wi d : ℝ) : EReal)) ((bir : ℝ) : EReal) (fun (d e : Fin 1024) => ((wk d e : ℝ) : EReal)) (fun (e : Fin 1024) => ((bkr e : ℝ) : EReal)) b e = ctx (fun (b : Fin 8) (n : Fin 4096) (d : Fin 1024) => ((xr b n d : ℝ) : EReal)) (fun (d : Fin 1024) => ((wi d : ℝ) : EReal)) ((bir : ℝ) : EReal) (fun (d e : Fin 1024) => ((wk d e : ℝ) : EReal)) (fun (e : Fin 1024) => ((bkr e : ℝ) : EReal)) b e := by
  classical
  have hS := fin_summ xr wi bir b
  -- the maximum of the 4096 real scores is a real number M
  obtain ⟨M, hM⟩ := sup_coe_real (sr xr wi bir b) Finset.univ Finset.univ_nonempty
  have hm : (fin (fun (b : Fin 8) (n : Fin 4096) (d : Fin 1024) => ((xr b n d : ℝ) : EReal)) (fun (d : Fin 1024) => ((wi d : ℝ) : EReal)) ((bir : ℝ) : EReal) b).m = (M : EReal) := ((hS 0).hm).trans hM
  have hmax : refMax (fun (b : Fin 8) (n : Fin 4096) (d : Fin 1024) => ((xr b n d : ℝ) : EReal)) (fun (d : Fin 1024) => ((wi d : ℝ) : EReal)) ((bir : ℝ) : EReal) b = (M : EReal) := by
    unfold refMax
    simp only [score_coe]
    rw [negInf_eq_bot, fold_max_bot, hM]
    exact max_eq_right bot_le
  have hE : ∀ n, refExp (fun (b : Fin 8) (n : Fin 4096) (d : Fin 1024) => ((xr b n d : ℝ) : EReal)) (fun (d : Fin 1024) => ((wi d : ℝ) : EReal)) ((bir : ℝ) : EReal) b n = ((Real.exp (sr xr wi bir b n - M) : ℝ) : EReal) := fun n => by
    unfold refExp
    rw [hmax, score_coe]
    exact exp_sub_coe _ _
  -- the sum of the exponentials is a positive real L
  have hpos : 0 < ∑ n, Real.exp (sr xr wi bir b n - M) :=
    Finset.sum_pos (fun n _ => Real.exp_pos _) Finset.univ_nonempty
  have hne : (∑ n, Real.exp (sr xr wi bir b n - M)) ≠ 0 := ne_of_gt hpos
  have hsum : zero + ∑ n, refExp (fun (b : Fin 8) (n : Fin 4096) (d : Fin 1024) => ((xr b n d : ℝ) : EReal)) (fun (d : Fin 1024) => ((wi d : ℝ) : EReal)) ((bir : ℝ) : EReal) b n
      = ((∑ n, Real.exp (sr xr wi bir b n - M) : ℝ) : EReal) := by
    simp only [hE]
    rw [zero_eq_zero, zero_add, ← coe_sum]
  have hW : ∀ n, refWeight (fun (b : Fin 8) (n : Fin 4096) (d : Fin 1024) => ((xr b n d : ℝ) : EReal)) (fun (d : Fin 1024) => ((wi d : ℝ) : EReal)) ((bir : ℝ) : EReal) b n
      = ((Real.exp (sr xr wi bir b n - M) * (1 / ∑ n, Real.exp (sr xr wi bir b n - M)) : ℝ) : EReal) := fun n => by
    unfold refWeight
    rw [hsum, hE, Ideal.div_coe hne, ← EReal.coe_mul]
  -- the kernel's l and acc are the same sums
  have hl : (fin (fun (b : Fin 8) (n : Fin 4096) (d : Fin 1024) => ((xr b n d : ℝ) : EReal)) (fun (d : Fin 1024) => ((wi d : ℝ) : EReal)) ((bir : ℝ) : EReal) b).l = ((∑ n, Real.exp (sr xr wi bir b n - M) : ℝ) : EReal) := by
    rw [(hS 0).hl, hm]
    simp only [exp_sub_coe]
    rw [← coe_sum]
  have hacc : ∀ d, (fin (fun (b : Fin 8) (n : Fin 4096) (d : Fin 1024) => ((xr b n d : ℝ) : EReal)) (fun (d : Fin 1024) => ((wi d : ℝ) : EReal)) ((bir : ℝ) : EReal) b).acc d = ((∑ n, Real.exp (sr xr wi bir b n - M) * xr b n d : ℝ) : EReal) := fun d => by
    rw [(hS d).ha, hm]
    simp only [exp_sub_coe, ← EReal.coe_mul]
    rw [← coe_sum]
  have hdiv : ∀ d, Ideal.div ((fin (fun (b : Fin 8) (n : Fin 4096) (d : Fin 1024) => ((xr b n d : ℝ) : EReal)) (fun (d : Fin 1024) => ((wi d : ℝ) : EReal)) ((bir : ℝ) : EReal) b).acc d) (fin (fun (b : Fin 8) (n : Fin 4096) (d : Fin 1024) => ((xr b n d : ℝ) : EReal)) (fun (d : Fin 1024) => ((wi d : ℝ) : EReal)) ((bir : ℝ) : EReal) b).l
      = (((∑ n, Real.exp (sr xr wi bir b n - M) * xr b n d) * (1 / ∑ n, Real.exp (sr xr wi bir b n - M)) : ℝ) : EReal) :=
    fun d => by rw [hacc, hl, Ideal.div_coe hne, ← EReal.coe_mul]
  unfold refCtx ctx
  simp only [hW, hdiv]
  rw [zero_eq_zero, zero_add]
  simp only [← EReal.coe_mul, ← coe_sum, ← EReal.coe_add]
  exact congrArg _ (real_ctx (fun n => Real.exp (sr xr wi bir b n - M)) (fun n d => xr b n d) (fun d => wk d e)
    (bkr e) _ rfl hne)

end

end Cert.Bridge

end
-- ==== Proof.Finite.lean ====
/-
  From the precondition to real entries.  The precondition says, for each of the nine arguments, that
  the conjunction over all its entries of |x| < +inf is true, and that the conjunction of the nine
  results is true.  An extended real whose absolute value max x (-x) is below +inf is neither
  infinity, so it is (the coercion of) a real number.
-/
import proofs.«125486_j82703890252111_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.Pre_finite_inputs

/-- An entry that passes the test |x| < +inf is a real number: at either infinity max x (-x) is +inf. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- A conjunction of two bits read at an index. -/
theorem andi_at {s : Shape} {w : Nat} (a b : IVec s w) (i : s.Idx) : andi a b i = IntOp.andi (a i) (b i) := rfl

/-- If the conjunction over a whole array of the tests |x| < +inf is true, every entry is a real number. -/
theorem all_real {S : Shape} {axes : List (Fin S.rank)} (x : S.Idx → EReal)
    (hb : (⟨0, ![]⟩ : Shape).BroadcastsInDim S (![] : Fin 0 → Fin S.rank))
    (hr : S.ReducesTo axes (⟨0, ![]⟩ : Shape)) (hu : 0 < (⟨0, ![]⟩ : Shape).numel)
    (h : Host.reduce IntOp.andi
          (cmpf .olt (Host.absf (F := Ideal) (φ := .f32) x)
            (broadcastInDim S ![] hb (constant (F := Ideal) (⟨0, ![]⟩ : Shape) .f32 0x7F800000#32)))
          (constantI (⟨0, ![]⟩ : Shape) 1 1#1) hr hu ix0 = 1#1) (i : S.Idx) :
    ∃ r : ℝ, x i = (r : EReal) := by
  haveI : Subsingleton (⟨0, ![]⟩ : Shape).Idx := ⟨fun a b => funext fun d => d.elim0⟩
  have hi := Host.reduce_andi_all _ _ hr hu ix0 h i
  have hc : broadcastInDim S ![] hb (constant (F := Ideal) (⟨0, ![]⟩ : Shape) .f32 0x7F800000#32) i
      = FloatOps.ofBits .f32 0x7F800000#32 :=
    broadcastInDim_apply _ hb _ i ix0 (fun a => a.elim0)
  have hi' : FloatOps.cmpf (F := Ideal) (φ := .f32) .olt (FloatOps.hostAbsf (x i))
      (broadcastInDim S ![] hb (constant (F := Ideal) (⟨0, ![]⟩ : Shape) .f32 0x7F800000#32) i) = 1#1 := hi
  rw [hc] at hi'
  exact real_of_abs_lt_inf (x i) hi'

/-- Under the precondition every entry of every argument is a real number. -/
theorem finite_inputs [Facts] (x0 : FVec Ideal S8x4096x1024 .f32) (x1 : FVec Ideal S1024x1 .f32) (x2 : FVec Ideal S1 .f32)
    (x3 : FVec Ideal S1024x1024 .f32) (x4 : FVec Ideal S1024 .f32) (x5 : FVec Ideal S1024x1024 .f32)
    (x6 : FVec Ideal S1024 .f32) (x7 : FVec Ideal S1024x1024 .f32) (x8 : FVec Ideal S1024 .f32)
    (hpre : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal)) := by
  have h := congrFun hpre ix0
  dsimp only [fn, fn_part1, fn_part2] at h
  simp only [andi_at, IntOp.andi_eq_one] at h
  obtain ⟨⟨⟨⟨⟨⟨⟨⟨h0, h1⟩, h2⟩, h3⟩, h4⟩, h5⟩, h6⟩, h7⟩, h8⟩ := h
  exact ⟨all_real x0 _ _ _ h0, all_real x1 _ _ _ h1, all_real x2 _ _ _ h2, all_real x3 _ _ _ h3, all_real x4 _ _ _ h4,
    all_real x5 _ _ _ h5, all_real x6 _ _ _ h6, all_real x7 _ _ _ h7, all_real x8 _ _ _ h8⟩

end Cert.Bridge

end
-- ==== Proof.Bridge.lean ====
/-
  The reference program's result is the specification's array.

  Read index by index the reference is the specification's outer formula, ((x·Wv + bv) ∘ c)·Wo + bo,
  applied to the reference's own context row c; the specification applies the same formula to the
  kernel-order context row.  Under the precondition every entry of every argument is a real number,
  and for real entries the two context rows are equal, so the two arrays are equal.
-/
import proofs.«125486_j82703890252111_2_alg».proof.Proof.RefRead
import proofs.«125486_j82703890252111_2_alg».proof.Proof.Algebra
import proofs.«125486_j82703890252111_2_alg».proof.Proof.Finite

noncomputable section

namespace Cert.Bridge

open Idealize.ShloMosaic Idealize.ShloMosaic.ValueIdx Idealize.SL.Sem Cert.Spec

theorem reference_is_spec [Cert.Pre_finite_inputs.Facts]
      (x0 : (⟨Cert.ReferenceIdeal.S8x4096x1024, .f32⟩ : BufTy).Contents (Elt Ideal)) (x1 : (⟨Cert.ReferenceIdeal.S1024x1, .f32⟩ : BufTy).Contents (Elt Ideal))
      (x2 : (⟨Cert.ReferenceIdeal.S1, .f32⟩ : BufTy).Contents (Elt Ideal)) (x3 : (⟨Cert.ReferenceIdeal.S1024x1024, .f32⟩ : BufTy).Contents (Elt Ideal))
      (x4 : (⟨Cert.ReferenceIdeal.S1024, .f32⟩ : BufTy).Contents (Elt Ideal)) (x5 : (⟨Cert.ReferenceIdeal.S1024x1024, .f32⟩ : BufTy).Contents (Elt Ideal))
      (x6 : (⟨Cert.ReferenceIdeal.S1024, .f32⟩ : BufTy).Contents (Elt Ideal)) (x7 : (⟨Cert.ReferenceIdeal.S1024x1024, .f32⟩ : BufTy).Contents (Elt Ideal))
      (x8 : (⟨Cert.ReferenceIdeal.S1024, .f32⟩ : BufTy).Contents (Elt Ideal))
      (hpre : Cert.Pre_finite_inputs.fn (F := Ideal) x0 x1 x2 x3 x4 x5 x6 x7 x8 = fun _ => 1#1) :
      Cert.ReferenceIdeal.Read.val_main_v32 (F := Ideal) x0 x1 x2 x3 x4 x5 x6 x7 x8 = Cert.Spec.kerArr x0 x1 x2 x3 x4 x5 x6 x7 x8 := by
  -- real witnesses for the five arguments the context row depends on
  obtain ⟨f0, f1, f2, f3, f4, -⟩ := finite_inputs x0 x1 x2 x3 x4 x5 x6 x7 x8 hpre
  choose r0 h0 using f0
  choose r1 h1 using f1
  choose r2 h2 using f2
  choose r3 h3 using f3
  choose r4 h4 using f4
  -- the two context rows agree
  have hctx : refCtx (fun (b : Fin 8) (n : Fin 4096) (d : Fin 1024) => x0 (ix3 b n d)) (fun (d : Fin 1024) => x1 (ix2 d (0 : Fin 1))) (x2 (ix1 (0 : Fin 1))) (fun (d e : Fin 1024) => x3 (ix2 d e)) (fun (e : Fin 1024) => x4 (ix1 e)) = ctx (fun (b : Fin 8) (n : Fin 4096) (d : Fin 1024) => x0 (ix3 b n d)) (fun (d : Fin 1024) => x1 (ix2 d (0 : Fin 1))) (x2 (ix1 (0 : Fin 1))) (fun (d e : Fin 1024) => x3 (ix2 d e)) (fun (e : Fin 1024) => x4 (ix1 e)) := by
    have e0 : (fun (b : Fin 8) (n : Fin 4096) (d : Fin 1024) => x0 (ix3 b n d)) = fun b n d => ((r0 (ix3 b n d) : ℝ) : EReal) :=
      funext fun b => funext fun n => funext fun d => h0 _
    have e1 : (fun (d : Fin 1024) => x1 (ix2 d (0 : Fin 1))) = fun d => ((r1 (ix2 d (0 : Fin 1)) : ℝ) : EReal) := funext fun d => h1 _
    have e2 : (x2 (ix1 (0 : Fin 1))) = ((r2 (ix1 (0 : Fin 1)) : ℝ) : EReal) := h2 _
    have e3 : (fun (d e : Fin 1024) => x3 (ix2 d e)) = fun d e => ((r3 (ix2 d e) : ℝ) : EReal) := funext fun d => funext fun e => h3 _
    have e4 : (fun (e : Fin 1024) => x4 (ix1 e)) = fun e => ((r4 (ix1 e) : ℝ) : EReal) := funext fun e => h4 _
    rw [e0, e1, e2, e3, e4]
    funext b e
    exact ctx_eq (fun (b : Fin 8) (n : Fin 4096) (d : Fin 1024) => r0 (ix3 b n d)) (fun (d : Fin 1024) => r1 (ix2 d (0 : Fin 1))) (r2 (ix1 (0 : Fin 1))) (fun (d e : Fin 1024) => r3 (ix2 d e)) (fun (e : Fin 1024) => r4 (ix1 e)) b e
  rw [reference_read]
  exact funext fun i => congrArg (fun c => outOf (fun (b : Fin 8) (n : Fin 4096) (d : Fin 1024) => x0 (ix3 b n d)) (fun (d j : Fin 1024) => x5 (ix2 d j)) (fun (j : Fin 1024) => x6 (ix1 j)) (fun (j e : Fin 1024) => x7 (ix2 j e)) (fun (e : Fin 1024) => x8 (ix1 e)) c (i 0) (i 1) (i 2)) hctx

end Cert.Bridge

end
-- ==== Proof.lean ====
/-
  The certificate's five claims for the pooled-softmax linear attention kernel against its reference.
  The program is two kernels: the first pools, per batch, the rows of x under softmax weights of the scores
  x·Wi + bi — in two tiles, keeping a running maximum, a running sum of exponentials and a running weighted row
  sum — and projects the pooled row once through Wk (+ bk) into a context row; the second computes
  ((x·Wv + bv) ∘ context)·Wo + bo row by row. The reference applies Wk to every row first and pools afterwards.
  Frames: each kernel program's run through its two regions (the first region's invariant carries the three running
  quantities from a batch's first tile to its second), at the word level and at the extended reals; the reference's
  run is a list of host operations. Values at the extended reals: the kernel program's result array is the
  specification's function of the arguments, written in the kernel's own order; the reference's result is the same
  function because, every input being finite, the weights sum to one and the Wk projection and the bias commute out
  of the pooled sum, and the two-tile running summary is the one-pass softmax. No operation was rewritten by the
  idealization, so the preservation claim is trivial.
-/
import proofs.«125486_j82703890252111_2_alg».proof.Defs
import proofs.«125486_j82703890252111_2_alg».proof.Proof.Gen.Kernel
import proofs.«125486_j82703890252111_2_alg».proof.Proof.Gen.KernelIdeal
import proofs.«125486_j82703890252111_2_alg».proof.Proof.Gen.ReferenceIdeal
import proofs.«125486_j82703890252111_2_alg».proof.Proof.Gen.ReferenceIdeal.Run
import proofs.«125486_j82703890252111_2_alg».proof.Proof.Gen.ReferenceIdeal.Read
import proofs.«125486_j82703890252111_2_alg».proof.Proof.Gen.Pre_finite_inputs
import proofs.«125486_j82703890252111_2_alg».proof.Proof.Kernel.Run
import proofs.«125486_j82703890252111_2_alg».proof.Proof.KernelIdeal.Run
import proofs.«125486_j82703890252111_2_alg».proof.Proof.KernelIdeal.KernelValue
import proofs.«125486_j82703890252111_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Hand.frame m ρ

/-- So does the idealized program. -/
theorem frame_kernelIdeal : Cert.frame_KernelIdeal := fun m ρ _ => Cert.KernelIdeal.Hand.frame m ρ

/-- The reference is a list of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the result array at
    the specification's function of the arguments. -/
theorem algebraic : Cert.algebraic_KernelIdeal_ReferenceIdeal := by
  intro m ρ m' ρ' hpre hagree
  refine ⟨fun c => Cert.Spec.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.kernel_value m c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.Bridge.reference_is_spec _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
